-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S63x8192 : Shape := ⟨2, ![63, 8192]⟩
abbrev S63x63 : Shape := ⟨2, ![63, 63]⟩
abbrev S8192x8192 : Shape := ⟨2, ![8192, 8192]⟩
abbrev S8192 : Shape := ⟨1, ![8192]⟩
abbrev S_ : Shape := ⟨0, ![]⟩

class Facts : Prop where
  bcast_S_S63x8192 : S_.BroadcastsInDim S63x8192 (![] : Fin 0 → Fin S63x8192.rank)
  reducesTo_S63x8192_S_d0_1 : S63x8192.ReducesTo [0, 1] S_
  h_S_ : 0 < S_.numel
  bcast_S_S63x63 : S_.BroadcastsInDim S63x63 (![] : Fin 0 → Fin S63x63.rank)
  reducesTo_S63x63_S_d0_1 : S63x63.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S63x8192 .f32) (main_arg1 : FVec F S63x63 .f32) (main_arg2 : FVec F S8192x8192 .f32) (main_arg3 : FVec F S8192 .f32) : IVec S_ 1 :=
  let main_v0 : FVec F S63x8192 .f32 := Host.absf main_arg0
  let main_cst : FVec F S_ .f32 := constant S_ .f32 0x7F800000#32
  let main_v1 : FVec F S63x8192 .f32 := broadcastInDim S63x8192 ![] bcast_S_S63x8192 main_cst
  let main_v2 : IVec S63x8192 1 := cmpf .olt main_v0 main_v1
  let main_c : IVec S_ 1 := constantI S_ 1 1#1
  let main_v3 : IVec S_ 1 := (fun x v => Host.reduce IntOp.andi x v reducesTo_S63x8192_S_d0_1 h_S_) main_v2 main_c
  let main_v4 : FVec F S63x63 .f32 := Host.absf main_arg1
  let main_cst_0 : FVec F S_ .f32 := constant S_ .f32 0x7F800000#32
  let main_v5 : FVec F S63x63 .f32 := broadcastInDim S63x63 ![] bcast_S_S63x63 main_cst_0
  let main_v6 : IVec S63x63 1 := cmpf .olt main_v4 main_v5
  let main_c_1 : IVec S_ 1 := constantI S_ 1 1#1
  let main_v7 : IVec S_ 1 := (fun x v => Host.reduce IntOp.andi x v reducesTo_S63x63_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S63x8192 : Shape := ⟨2, ![63, 8192]⟩
abbrev S63x63 : Shape := ⟨2, ![63, 63]⟩
abbrev S8192x8192 : Shape := ⟨2, ![8192, 8192]⟩
abbrev S8192 : Shape := ⟨1, ![8192]⟩
abbrev S1x8192 : Shape := ⟨2, ![1, 8192]⟩
abbrev S63x1024 : Shape := ⟨2, ![63, 1024]⟩
abbrev S2048x1024 : Shape := ⟨2, ![2048, 1024]⟩
abbrev S1x2048 : Shape := ⟨2, ![1, 2048]⟩
abbrev S63x2048 : Shape := ⟨2, ![63, 2048]⟩
abbrev S8192x63 : Shape := ⟨2, ![8192, 63]⟩
abbrev S4096x63 : Shape := ⟨2, ![4096, 63]⟩
abbrev S63x4096 : Shape := ⟨2, ![63, 4096]⟩

abbrev nBuf : Space → Nat
  | .hbm => 8
  | .vmem => 14
  | .smem => 0
  | _ => 0

abbrev bufTy : (tb : Table) → Fin (tcTables nBuf tb) → BufTy
  | .hbm, ⟨0, _⟩ => ⟨S63x8192, .f32⟩
  | .hbm, ⟨1, _⟩ => ⟨S63x63, .f32⟩
  | .hbm, ⟨2, _⟩ => ⟨S8192x8192, .f32⟩
  | .hbm, ⟨3, _⟩ => ⟨S8192, .f32⟩
  | .hbm, ⟨4, _⟩ => ⟨S1x8192, .f32⟩
  | .hbm, ⟨5, _⟩ => ⟨S63x8192, .f32⟩
  | .hbm, ⟨6, _⟩ => ⟨S8192x63, .f32⟩
  | .hbm, ⟨7, _⟩ => ⟨S63x8192, .f32⟩
  | .local _ .vmem, ⟨0, _⟩ => ⟨S63x1024, .f32⟩
  | .local _ .vmem, ⟨1, _⟩ => ⟨S63x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S63x2048, .f32⟩
  | .local _ .vmem, ⟨7, _⟩ => ⟨S63x2048, .f32⟩
  | .local _ .vmem, ⟨8, _⟩ => ⟨S63x2048, .f32⟩
  | .local _ .vmem, ⟨9, _⟩ => ⟨S63x63, .f32⟩
  | .local _ .vmem, ⟨10, _⟩ => ⟨S4096x63, .f32⟩
  | .local _ .vmem, ⟨11, _⟩ => ⟨S4096x63, .f32⟩
  | .local _ .vmem, ⟨12, _⟩ => ⟨S63x4096, .f32⟩
  | .local _ .vmem, ⟨13, _⟩ => ⟨S63x4096, .f32⟩
  | _, _ => ⟨S63x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S63x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S63x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S63x63 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x63 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S63x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8192_S1x8192 : S8192.ShapeCasts S1x8192
  inb_S63x2048_S63x2048_0_0 : ∀ a, (![0, 0] : Fin 2 → Nat) a + S63x2048.size a ≤ S63x2048.size a
  h_S63x2048 : 0 < S63x2048.numel
  shapeCasts_S63x2048_S63x2048 : S63x2048.ShapeCasts S63x2048
  inb_S63x1024_S63x1024_0_0 : ∀ a, (![0, 0] : Fin 2 → Nat) a + S63x1024.size a ≤ S63x1024.size a
  h_S63x1024 : 0 < S63x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S63x2048 : S1x2048.Broadcasts S63x2048
  shapeCasts_S63x8192_S8192x63 : S63x8192.ShapeCasts S8192x63
  inb_S63x63_S63x63_0_0 : ∀ a, (![0, 0] : Fin 2 → Nat) a + S63x63.size a ≤ S63x63.size a
  h_S63x63 : 0 < S63x63.numel
  inb_S4096x63_S4096x63_0_0 : ∀ a, (![0, 0] : Fin 2 → Nat) a + S4096x63.size a ≤ S4096x63.size a
  h_S4096x63 : 0 < S4096x63.numel
  shapeCasts_S4096x63_S4096x63 : S4096x63.ShapeCasts S4096x63
  inb_S63x4096_S63x4096_0_0 : ∀ a, (![0, 0] : Fin 2 → Nat) a + S63x4096.size a ≤ S63x4096.size a
  h_S63x4096 : 0 < S63x4096.numel
  dot_S63x1024_S2048x1024_S63x2048_1_1_0_0_n_n_wf : DotDims.WF S63x1024 S2048x1024 S63x2048 [1] [1] [0] [0] [] []
  dot_S63x63_S4096x63_S63x4096_1_1_0_0_n_n_wf : DotDims.WF S63x63 S4096x63 S63x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S63x1024.size a ≤ S63x8192.size a
  hwx0_0 : ∀ i : grid0.Coords, EltTy.bits .f32 = 32 ∨ (Rect.block (s := S63x8192) S63x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S63x2048.size a ≤ S63x8192.size a
  hwx0_3 : ∀ i : grid0.Coords, EltTy.bits .f32 = 32 ∨ (Rect.block (s := S63x8192) S63x2048.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S63x63.size a ≤ S63x63.size a
  hwx1_0 : ∀ i : grid1.Coords, EltTy.bits .f32 = 32 ∨ (Rect.block (s := S63x63) S63x63.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x63.size a ≤ S8192x63.size a
  hwx1_1 : ∀ i : grid1.Coords, EltTy.bits .f32 = 32 ∨ (Rect.block (s := S8192x63) S4096x63.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S63x4096.size a ≤ S63x8192.size a
  hwx1_2 : ∀ i : grid1.Coords, EltTy.bits .f32 = 32 ∨ (Rect.block (s := S63x8192) S63x4096.size (cc1_transform_2 i) (hinb1_2 i)).WholeWords (EltTy.packing .f32)

variable [Facts₀]

def dot_S63x1024_S2048x1024_S63x2048_1_1_0_0_n_n : DotDims S63x1024 S2048x1024 S63x2048 where
  lhsContracting := [1]
  rhsContracting := [1]
  lhsNonContracting := [0]
  rhsNonContracting := [0]
  lhsBatch := []
  rhsBatch := []
  wf := dot_S63x1024_S2048x1024_S63x2048_1_1_0_0_n_n_wf
def dot_S63x63_S4096x63_S63x4096_1_1_0_0_n_n : DotDims S63x63 S4096x63 S63x4096 where
  lhsContracting := [1]
  rhsContracting := [1]
  lhsNonContracting := [0]
  rhsNonContracting := [0]
  lhsBatch := []
  rhsBatch := []
  wf := dot_S63x63_S4096x63_S63x4096_1_1_0_0_n_n_wf

abbrev win0_0 : Pipeline.Window sig grid0 :=
  Pipeline.Window.ofSpec (Memref.whole main_arg0) S63x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S63x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S63x63.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x63.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S63x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S63x8192 : Shape := ⟨2, ![63, 8192]⟩
abbrev S63x63 : Shape := ⟨2, ![63, 63]⟩
abbrev S8192x8192 : Shape := ⟨2, ![8192, 8192]⟩
abbrev S8192 : Shape := ⟨1, ![8192]⟩
abbrev S1x8192 : Shape := ⟨2, ![1, 8192]⟩
abbrev S_ : Shape := ⟨0, ![]⟩
abbrev S8192x63 : Shape := ⟨2, ![8192, 63]⟩

abbrev nBuf : Space → Nat
  | .hbm => 14
  | .vmem => 0
  | .smem => 0
  | _ => 0

abbrev bufTy : (tb : Table) → Fin (tcTables nBuf tb) → BufTy
  | .hbm, ⟨0, _⟩ => ⟨S63x8192, .f32⟩
  | .hbm, ⟨1, _⟩ => ⟨S63x63, .f32⟩
  | .hbm, ⟨2, _⟩ => ⟨S8192x8192, .f32⟩
  | .hbm, ⟨3, _⟩ => ⟨S8192, .f32⟩
  | .hbm, ⟨4, _⟩ => ⟨S8192x8192, .f32⟩
  | .hbm, ⟨5, _⟩ => ⟨S63x8192, .f32⟩
  | .hbm, ⟨6, _⟩ => ⟨S1x8192, .f32⟩
  | .hbm, ⟨7, _⟩ => ⟨S63x8192, .f32⟩
  | .hbm, ⟨8, _⟩ => ⟨S63x8192, .f32⟩
  | .hbm, ⟨9, _⟩ => ⟨S_, .f32⟩
  | .hbm, ⟨10, _⟩ => ⟨S63x8192, .f32⟩
  | .hbm, ⟨11, _⟩ => ⟨S63x8192, .f32⟩
  | .hbm, ⟨12, _⟩ => ⟨S8192x63, .f32⟩
  | .hbm, ⟨13, _⟩ => ⟨S63x8192, .f32⟩
  | _, _ => ⟨S63x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S8192_S1x8192_1 : S8192.BroadcastsInDim S1x8192 (![1] : Fin 1 → Fin S1x8192.rank)
  bcast_S1x8192_S63x8192_0_1 : S1x8192.BroadcastsInDim S63x8192 (![0, 1] : Fin 2 → Fin S63x8192.rank)
  bcast_S_S63x8192 : S_.BroadcastsInDim S63x8192 (![] : Fin 0 → Fin S63x8192.rank)
  shapeCasts_S63x8192_S8192x63 : S63x8192.ShapeCasts S8192x63
  dot_S63x8192_S8192x8192_S63x8192_1_0_0_1_n_n_wf : DotDims.WF S63x8192 S8192x8192 S63x8192 [1] [0] [0] [1] [] []
  dot_S63x63_S8192x63_S63x8192_1_1_0_0_n_n_wf : DotDims.WF S63x63 S8192x63 S63x8192 [1] [1] [0] [0] [] []

variable [Facts₀]

def dot_S63x8192_S8192x8192_S63x8192_1_0_0_1_n_n : DotDims S63x8192 S8192x8192 S63x8192 where
  lhsContracting := [1]
  rhsContracting := [0]
  lhsNonContracting := [0]
  rhsNonContracting := [1]
  lhsBatch := []
  rhsBatch := []
  wf := dot_S63x8192_S8192x8192_S63x8192_1_0_0_1_n_n_wf
def dot_S63x63_S8192x63_S63x8192_1_1_0_0_n_n : DotDims S63x63 S8192x63 S63x8192 where
  lhsContracting := [1]
  rhsContracting := [1]
  lhsNonContracting := [0]
  rhsNonContracting := [0]
  lhsBatch := []
  rhsBatch := []
  wf := dot_S63x63_S8192x63_S63x8192_1_1_0_0_n_n_wf

class Facts : Prop extends Facts₀ where

variable [Facts]
-- ==== Proof.Kernel.Common.lean ====
/-
  Both pallas_calls of the program, read at any instance F and at any contents V of the TensorCore's
  buffers when a region is entered: each window's block at a grid point, the fact that an input window's
  current staging buffer holds that block at every point, the two conditions of the first kernel's
  conditionals in closed form over the grid (grid point t = 8·n + k: the accumulator is zeroed at k = 0,
  the bias and the maximum with zero are applied, and the output stored, at k = 7), where the first
  kernel's output window is idle, and the staging memrefs the kernel bodies are called with.
-/
import proofs.«125805_j52673478918325_2_alg».proof.Proof.Gen.Kernel.Launch
import proofs.«125805_j52673478918325_2_alg».proof.Proof.Gen.Kernel.Skeleton
import proofs.«125805_j52673478918325_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first kernel (the matrix product accumulated over k, bias and maximum at the last k) -/

/-- Window w's block at point t of the first grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or left it (the block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The accumulator is zeroed: the kernel's first conditional, as it computes it from the grid coordinates. -/
abbrev cond0_0 (i : grid0.Coords) : Prop := (Scalar.cmpi .ne (Scalar.extui (Scalar.cmpi .eq (BitVec.ofNat 32 (i 1).val) 0#32)) 0#32) = 1#1
/-- It holds exactly at the points with k = 0. -/
theorem hcond0_0 : ∀ t : Fin cfg0.N, cond0_0 (grid0.coords t) ↔ t.val % 8 = 0 :=
  (by decide +kernel : ∀ t : Fin grid0.N, cond0_0 (grid0.coords t) ↔ t.val % 8 = 0)
/-- The output is stored: the kernel's second conditional. -/
abbrev cond0_1 (i : grid0.Coords) : Prop := k0_cond2 i = 1#1
/-- It holds exactly at the points with k = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output is not stored (k < 7) its window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is stored (k = 7) the window is live. -/
theorem liveAt0_3 : ∀ t : Fin cfg0.N, cond0_1 (grid0.coords t) → cfg0.idle 3 (grid0.coords t) = false := by decide +kernel

/-- Each window's current staging memref at point t, as the pipeline passes it, and its wholeness. -/
abbrev ms0_0 (t : Fin cfg0.N) : Memref sig .tc .vmem S63x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S63x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S63x2048 .f32 := Memref.whole cc0_scratch0
/-- Views through which the contents of the output's staging buffer and of the accumulator are stated. -/
abbrev VO0 : View sig .tc .vmem S63x2048 .f32 := (Memref.whole cc0_stg3_0 : Memref sig .tc .vmem S63x2048 .f32).view
abbrev VS0 : View sig .tc .vmem S63x2048 .f32 := scM0.view

/-! ## The second kernel (one matrix product per block of 4096 columns) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S63x63 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x63 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S63x4096 .f32 := win1_2.stage (cfg1.slots t 2)
abbrev hs1_2 (t : Fin cfg1.N) : (ms1_2 t).IsWhole := hstage1_2 ((cfg1.slots t 2).cast nbuf1_2)
abbrev VO1 : View sig .tc .vmem S63x4096 .f32 := (Memref.whole cc1_stg2_0 : Memref sig .tc .vmem S63x4096 .f32).view

end Regions

/-! ## The scoped buffers a region does not stage -/

/-- The second kernel's staging buffers, which the first region holds at anything and never touches. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the first region's body may use and need not describe: the accumulator at some contents, the other
    region's staging buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

end Cert.Kernel.Hand

end
-- ==== Proof.Kernel.RunA.lean ====
/-
  The first kernel's body at a grid point with k = 0, on whole staging memrefs: the three input blocks are
  read and left as they were, the output's buffer (not stored at this point) is handed back untouched, and the
  accumulator, found at anything, ends with the pieces the body's two stores leave (the zeros, then zeros plus
  this point's partial product). The pieces are found by running the body symbolically.
-/
import proofs.«125805_j52673478918325_2_alg».proof.Proof.Kernel.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : cond0_0 i) (hc1 : ¬cond0_1 i)
    (x0 : Vec F S63x1024 .f32) (x1 : Vec F S2048x1024 .f32) (x2 : Vec F S1x2048 .f32) :
    { LS0 : List (View.Piece (Elt F) S63x2048 .f32) //
      ∀ (xi3 : Vec F S63x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__mlp_relu_kernel i arg2 harg2 arg3 harg3 arg4 harg4 arg5 harg5 arg6 harg6) K } := by
  refine ⟨?_, fun xi3 E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Kernel.RunB.lean ====
/-
  The first kernel's body at a grid point with 0 < k < 7: the input blocks are read and left as they were, the
  output's buffer is handed back untouched, and the accumulator, found at what the point before left, ends with
  the piece the body's one store leaves (the old contents plus this point's partial product).
-/
import proofs.«125805_j52673478918325_2_alg».proof.Proof.Kernel.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : ¬cond0_1 i)
    (x0 : Vec F S63x1024 .f32) (x1 : Vec F S2048x1024 .f32) (x2 : Vec F S1x2048 .f32) (xs0 : Vec F S63x2048 .f32) :
    { LS0 : List (View.Piece (Elt F) S63x2048 .f32) //
      ∀ (xi3 : Vec F S63x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__mlp_relu_kernel i arg2 harg2 arg3 harg3 arg4 harg4 arg5 harg5 arg6 harg6) K } := by
  refine ⟨?_, fun xi3 E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Kernel.RunC.lean ====
/-
  The first kernel's body at a grid point with k = 7: the input blocks are read and left as they were, the
  accumulator, found at what the point before left, ends with the piece of the body's store (old contents plus
  the last partial product), and the output's buffer, found at anything, ends with the piece of the final store
  (the maximum of zero and the accumulator plus the bias row).
-/
import proofs.«125805_j52673478918325_2_alg».proof.Proof.Kernel.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) :
    Σ' (L3 : List (View.Piece (Elt F) S63x2048 .f32)), { LS0 : List (View.Piece (Elt F) S63x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__mlp_relu_kernel i arg2 harg2 arg3 harg3 arg4 harg4 arg5 harg5 arg6 harg6) K } := by
  refine ⟨?_, ?_, fun E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Kernel.Reg0.lean ====
/-
  The first pallas_call as a pipeline, at any instance F and any entry contents V: what the output's staging
  buffer and the accumulator hold after the body at each grid point (by recursion on the point: at k = 0 the
  accumulator is zeros plus the first partial product, at 0 < k it is what the point before left plus this
  point's partial product, and at k = 7 the output's buffer takes the maximum of zero and accumulator plus
  bias), the invariant that carries the accumulator from point to point, the pipeline's proof data, and the
  body obligation at every point (a case split on k = 0, 0 < k < 7, k = 7).
-/
import proofs.«125805_j52673478918325_2_alg».proof.Proof.Kernel.RunA
import proofs.«125805_j52673478918325_2_alg».proof.Proof.Kernel.RunB
import proofs.«125805_j52673478918325_2_alg».proof.Proof.Kernel.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves -/

/-- Where the output is not stored its buffer's contents are never consulted: a placeholder. -/
def idleOut : Vec F S63x2048 .f32 :=
  VO0.read (Elt F) (VO0.writes (Elt F) VO0.junk ([] : List (View.Piece (Elt F) S63x2048 .f32)))

/-- At k = 0 the stores into the accumulator cover it. -/
theorem scover0_A (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : cond0_0 i) (hc1 : ¬cond0_1 i)
    (x0 : Vec F S63x1024 .f32) (x1 : Vec F S2048x1024 .f32) (x2 : Vec F S1x2048 .f32) (y : S63x2048.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S63x2048.size (by sl_kernel_rfl) y
/-- What the accumulator holds after a point with k = 0. -/
def sout0_A (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : cond0_0 i) (hc1 : ¬cond0_1 i)
    (x0 : Vec F S63x1024 .f32) (x1 : Vec F S2048x1024 .f32) (x2 : Vec F S1x2048 .f32) : Vec F S63x2048 .f32 :=
  VS0.read (Elt F) (VS0.writes (Elt F) VS0.junk (kernelRun0_A c i arg2 harg2 arg3 harg3 arg4 harg4 arg5 harg5 arg6 harg6 hc0 hc1 x0 x1 x2).1)

/-- At 0 < k < 7 the store into the accumulator covers it. -/
theorem scover0_B (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : ¬cond0_1 i)
    (x0 : Vec F S63x1024 .f32) (x1 : Vec F S2048x1024 .f32) (x2 : Vec F S1x2048 .f32) (xs0 : Vec F S63x2048 .f32) (y : S63x2048.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S63x2048.size (by sl_kernel_rfl) y
/-- What the accumulator holds after a point with 0 < k < 7, from what the point before left. -/
def sout0_B (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : ¬cond0_1 i)
    (x0 : Vec F S63x1024 .f32) (x1 : Vec F S2048x1024 .f32) (x2 : Vec F S1x2048 .f32) (xs0 : Vec F S63x2048 .f32) : Vec F S63x2048 .f32 :=
  VS0.read (Elt F) (VS0.writes (Elt F) VS0.junk (kernelRun0_B c i arg2 harg2 arg3 harg3 arg4 harg4 arg5 harg5 arg6 harg6 hc0 hc1 x0 x1 x2 xs0).1)

/-- At k = 7 the store into the output's buffer covers it, -/
theorem cover0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) (y : S63x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S63x2048.size (by sl_kernel_rfl) y
/-- and what that buffer then holds. -/
def out0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) : Vec F S63x2048 .f32 :=
  VO0.read (Elt F) (VO0.writes (Elt F) VO0.junk (kernelRun0_C c i arg2 harg2 arg3 harg3 arg4 harg4 arg5 harg5 arg6 harg6 hc0 hc1 x0 x1 x2 xs0).1)
/-- At k = 7 the store into the accumulator covers it, -/
theorem scover0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) (y : S63x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S63x2048.size (by sl_kernel_rfl) y
/-- and what the accumulator then holds. -/
def sout0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) : Vec F S63x2048 .f32 :=
  VS0.read (Elt F) (VS0.writes (Elt F) VS0.junk (kernelRun0_C c i arg2 harg2 arg3 harg3 arg4 harg4 arg5 harg5 arg6 harg6 hc0 hc1 x0 x1 x2 xs0).2.1)

/-! ## Point by point -/

/-- THE ACCUMULATION: the output's staging buffer and the accumulator after the body at position n. -/
def outsAt0 (c : Dev nD) : (n : ℕ) → n < cfg0.N → Vec F S63x2048 .f32 × Vec F S63x2048 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (idleOut, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 32 := lt_of_lt_of_eq t.isLt (show cfg0.N = 32 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hr⟩, Hg⟩
  isplitl [HS0 Hr]
  · isplitl [HS0]
    · iexists _; iexact HS0
    iexact Hr
  iexact Hg

end Regions

end Cert.Kernel.Hand

end
-- ==== Proof.Kernel.Run1.lean ====
/-
  The second kernel's body at any grid point, on whole staging memrefs: both input blocks are read and left as
  they were, and the output's buffer, found at anything, ends with the piece of the body's one store (the matrix
  product of the two blocks).
-/
import proofs.«125805_j52673478918325_2_alg».proof.Proof.Kernel.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun1 (c : Dev nD) (i : grid1.Coords) (arg1 : Memref sig .tc .vmem S63x63 .f32) (harg1 : arg1.IsWhole) (arg2 : Memref sig .tc .vmem S4096x63 .f32) (harg2 : arg2.IsWhole) (arg3 : Memref sig .tc .vmem S63x4096 .f32) (harg3 : arg3.IsWhole)
    (x0 : Vec F S63x63 .f32) (x1 : Vec F S4096x63 .f32) :
    { L2 : List (View.Piece (Elt F) S63x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__s_ml_kernel i arg1 harg1 arg2 harg2 arg3 harg3) K } := by
  refine ⟨?_, fun E K => ?run⟩
  case run =>
    simp only [cc1__s_ml_kernel_eq_skeleton]; unfold cc1__s_ml_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.Kernel.Reg1.lean ====
/-
  The second pallas_call as a pipeline, at any instance F and any entry contents V: the output's staging buffer
  after the body at a grid point (the one store's piece: the product of the point's two input blocks), the proof
  data, and the body obligation at every point. Nothing is carried between points.
-/
import proofs.«125805_j52673478918325_2_alg».proof.Proof.Kernel.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The body's store covers the output's buffer, -/
theorem cover1 (c : Dev nD) (i : grid1.Coords) (arg1 : Memref sig .tc .vmem S63x63 .f32) (harg1 : arg1.IsWhole) (arg2 : Memref sig .tc .vmem S4096x63 .f32) (harg2 : arg2.IsWhole) (arg3 : Memref sig .tc .vmem S63x4096 .f32) (harg3 : arg3.IsWhole)
    (x0 : Vec F S63x63 .f32) (x1 : Vec F S4096x63 .f32) (y : S63x4096.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S63x4096.size (by sl_kernel_rfl) y
/-- and what that buffer then holds. -/
def out1 (c : Dev nD) (i : grid1.Coords) (arg1 : Memref sig .tc .vmem S63x63 .f32) (harg1 : arg1.IsWhole) (arg2 : Memref sig .tc .vmem S4096x63 .f32) (harg2 : arg2.IsWhole) (arg3 : Memref sig .tc .vmem S63x4096 .f32) (harg3 : arg3.IsWhole)
    (x0 : Vec F S63x63 .f32) (x1 : Vec F S4096x63 .f32) : Vec F S63x4096 .f32 :=
  VO1.read (Elt F) (VO1.writes (Elt F) VO1.junk (kernelRun1 c i arg1 harg1 arg2 harg2 arg3 harg3 x0 x1).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 c (grid1.coords t) (ms1_0 t) (hs1_0 t) (ms1_1 t) (hs1_1 t) (ms1_2 t) (hs1_2 t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.Kernel.Main.lean ====
/-
  The whole program as a run: the contents of the TensorCore's unscoped buffers at each boundary between @main's
  four items (the bias re-read as one row; the first pallas_call; its result re-read row-major as 8192 × 63; the
  second pallas_call), each region's arrays at what its pipeline leaves and every other buffer as it was; the
  two regions as segments over those contents; and the run itself: every weakly fair execution terminates with
  every unscoped buffer at the last boundary's contents.
-/
import proofs.«125805_j52673478918325_2_alg».proof.Proof.Kernel.Reg0
import proofs.«125805_j52673478918325_2_alg».proof.Proof.Kernel.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the bias is re-read as one row (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first result is re-read row-major as 8192 × 63 (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Hand

end
-- ==== Proof.Kernel.Args.lean ====
/-
  No item of @main writes an argument: the two host lines write only their own result buffers, the first
  pallas_call reads L and W through input windows and writes only its result, the second reads S through an
  input window. So each argument's buffer at the last boundary holds its launch contents, and the run gives the
  frame: every weakly fair execution terminates, nothing faults, the argument arrays end unchanged.
-/
import proofs.«125805_j52673478918325_2_alg».proof.Proof.Kernel.Main
import proofs.«125805_j52673478918325_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W3_main_arg1 (c : Dev nD) : W3 m ρ c (Proc.devRef .tc main_arg1) = m ((c : Thread nD τ).loc main_arg1) :=
  (W3_of m ρ c main_arg1 (by decide)).trans (W2_main_arg1 m ρ c)

theorem W4_main_arg0 (c : Dev nD) : W4 m ρ c (Proc.devRef .tc main_arg0) = m ((c : Thread nD τ).loc main_arg0) :=
  (W4_of_ne m ρ c main_arg0 (by decide)).trans ((W3_of m ρ c main_arg0 (by decide)).trans (W2_main_arg0 m ρ c))
theorem W4_main_arg1 (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_main_arg1 m ρ c)
theorem W4_main_arg2 (c : Dev nD) : W4 m ρ c (Proc.devRef .tc main_arg2) = m ((c : Thread nD τ).loc main_arg2) :=
  (W4_of_ne m ρ c main_arg2 (by decide)).trans ((W3_of m ρ c main_arg2 (by decide)).trans (W2_main_arg2 m ρ c))
theorem W4_main_arg3 (c : Dev nD) : W4 m ρ c (Proc.devRef .tc main_arg3) = m ((c : Thread nD τ).loc main_arg3) :=
  (W4_of_ne m ρ c main_arg3 (by decide)).trans ((W3_of m ρ c main_arg3 (by decide)).trans (W2_main_arg3 m ρ c))

/-- The run with the result named and the arguments unchanged. -/
theorem run_named : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v3 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.Kernel.Hand

end
-- ==== Proof.KernelIdeal.Common.lean ====
/-
  Both pallas_calls of the program, read at any instance F and at any contents V of the TensorCore's
  buffers when a region is entered: each window's block at a grid point, the fact that an input window's
  current staging buffer holds that block at every point, the two conditions of the first kernel's
  conditionals in closed form over the grid (grid point t = 8·n + k: the accumulator is zeroed at k = 0,
  the bias and the maximum with zero are applied, and the output stored, at k = 7), where the first
  kernel's output window is idle, and the staging memrefs the kernel bodies are called with.
-/
import proofs.«125805_j52673478918325_2_alg».proof.Proof.Gen.KernelIdeal.Launch
import proofs.«125805_j52673478918325_2_alg».proof.Proof.Gen.KernelIdeal.Skeleton
import proofs.«125805_j52673478918325_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The first kernel (the matrix product accumulated over k, bias and maximum at the last k) -/

/-- Window w's block at point t of the first grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or left it (the block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The accumulator is zeroed: the kernel's first conditional, as it computes it from the grid coordinates. -/
abbrev cond0_0 (i : grid0.Coords) : Prop := (Scalar.cmpi .ne (Scalar.extui (Scalar.cmpi .eq (BitVec.ofNat 32 (i 1).val) 0#32)) 0#32) = 1#1
/-- It holds exactly at the points with k = 0. -/
theorem hcond0_0 : ∀ t : Fin cfg0.N, cond0_0 (grid0.coords t) ↔ t.val % 8 = 0 :=
  (by decide +kernel : ∀ t : Fin grid0.N, cond0_0 (grid0.coords t) ↔ t.val % 8 = 0)
/-- The output is stored: the kernel's second conditional. -/
abbrev cond0_1 (i : grid0.Coords) : Prop := k0_cond2 i = 1#1
/-- It holds exactly at the points with k = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output is not stored (k < 7) its window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is stored (k = 7) the window is live. -/
theorem liveAt0_3 : ∀ t : Fin cfg0.N, cond0_1 (grid0.coords t) → cfg0.idle 3 (grid0.coords t) = false := by decide +kernel

/-- Each window's current staging memref at point t, as the pipeline passes it, and its wholeness. -/
abbrev ms0_0 (t : Fin cfg0.N) : Memref sig .tc .vmem S63x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S63x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S63x2048 .f32 := Memref.whole cc0_scratch0
/-- Views through which the contents of the output's staging buffer and of the accumulator are stated. -/
abbrev VO0 : View sig .tc .vmem S63x2048 .f32 := (Memref.whole cc0_stg3_0 : Memref sig .tc .vmem S63x2048 .f32).view
abbrev VS0 : View sig .tc .vmem S63x2048 .f32 := scM0.view

/-! ## The second kernel (one matrix product per block of 4096 columns) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S63x63 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x63 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S63x4096 .f32 := win1_2.stage (cfg1.slots t 2)
abbrev hs1_2 (t : Fin cfg1.N) : (ms1_2 t).IsWhole := hstage1_2 ((cfg1.slots t 2).cast nbuf1_2)
abbrev VO1 : View sig .tc .vmem S63x4096 .f32 := (Memref.whole cc1_stg2_0 : Memref sig .tc .vmem S63x4096 .f32).view

end Regions

/-! ## The scoped buffers a region does not stage -/

/-- The second kernel's staging buffers, which the first region holds at anything and never touches. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the first region's body may use and need not describe: the accumulator at some contents, the other
    region's staging buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

end Cert.KernelIdeal.Hand

end
-- ==== Proof.KernelIdeal.RunA.lean ====
/-
  The first kernel's body at a grid point with k = 0, on whole staging memrefs: the three input blocks are
  read and left as they were, the output's buffer (not stored at this point) is handed back untouched, and the
  accumulator, found at anything, ends with the pieces the body's two stores leave (the zeros, then zeros plus
  this point's partial product). The pieces are found by running the body symbolically.
-/
import proofs.«125805_j52673478918325_2_alg».proof.Proof.KernelIdeal.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : cond0_0 i) (hc1 : ¬cond0_1 i)
    (x0 : Vec F S63x1024 .f32) (x1 : Vec F S2048x1024 .f32) (x2 : Vec F S1x2048 .f32) :
    { LS0 : List (View.Piece (Elt F) S63x2048 .f32) //
      ∀ (xi3 : Vec F S63x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__mlp_relu_kernel i arg2 harg2 arg3 harg3 arg4 harg4 arg5 harg5 arg6 harg6) K } := by
  refine ⟨?_, fun xi3 E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.RunB.lean ====
/-
  The first kernel's body at a grid point with 0 < k < 7: the input blocks are read and left as they were, the
  output's buffer is handed back untouched, and the accumulator, found at what the point before left, ends with
  the piece the body's one store leaves (the old contents plus this point's partial product).
-/
import proofs.«125805_j52673478918325_2_alg».proof.Proof.KernelIdeal.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : ¬cond0_1 i)
    (x0 : Vec F S63x1024 .f32) (x1 : Vec F S2048x1024 .f32) (x2 : Vec F S1x2048 .f32) (xs0 : Vec F S63x2048 .f32) :
    { LS0 : List (View.Piece (Elt F) S63x2048 .f32) //
      ∀ (xi3 : Vec F S63x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__mlp_relu_kernel i arg2 harg2 arg3 harg3 arg4 harg4 arg5 harg5 arg6 harg6) K } := by
  refine ⟨?_, fun xi3 E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.RunC.lean ====
/-
  The first kernel's body at a grid point with k = 7: the input blocks are read and left as they were, the
  accumulator, found at what the point before left, ends with the piece of the body's store (old contents plus
  the last partial product), and the output's buffer, found at anything, ends with the piece of the final store
  (the maximum of zero and the accumulator plus the bias row).
-/
import proofs.«125805_j52673478918325_2_alg».proof.Proof.KernelIdeal.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) :
    Σ' (L3 : List (View.Piece (Elt F) S63x2048 .f32)), { LS0 : List (View.Piece (Elt F) S63x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__mlp_relu_kernel i arg2 harg2 arg3 harg3 arg4 harg4 arg5 harg5 arg6 harg6) K } := by
  refine ⟨?_, ?_, fun E K => ?run⟩
  case run =>
    simp only [cc0__mlp_relu_kernel_eq_skeleton]; unfold cc0__mlp_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KernelIdeal.Reg0.lean ====
/-
  The first pallas_call as a pipeline, at any instance F and any entry contents V: what the output's staging
  buffer and the accumulator hold after the body at each grid point (by recursion on the point: at k = 0 the
  accumulator is zeros plus the first partial product, at 0 < k it is what the point before left plus this
  point's partial product, and at k = 7 the output's buffer takes the maximum of zero and accumulator plus
  bias), the invariant that carries the accumulator from point to point, the pipeline's proof data, and the
  body obligation at every point (a case split on k = 0, 0 < k < 7, k = 7).
-/
import proofs.«125805_j52673478918325_2_alg».proof.Proof.KernelIdeal.RunA
import proofs.«125805_j52673478918325_2_alg».proof.Proof.KernelIdeal.RunB
import proofs.«125805_j52673478918325_2_alg».proof.Proof.KernelIdeal.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves -/

/-- Where the output is not stored its buffer's contents are never consulted: a placeholder. -/
def idleOut : Vec F S63x2048 .f32 :=
  VO0.read (Elt F) (VO0.writes (Elt F) VO0.junk ([] : List (View.Piece (Elt F) S63x2048 .f32)))

/-- At k = 0 the stores into the accumulator cover it. -/
theorem scover0_A (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : cond0_0 i) (hc1 : ¬cond0_1 i)
    (x0 : Vec F S63x1024 .f32) (x1 : Vec F S2048x1024 .f32) (x2 : Vec F S1x2048 .f32) (y : S63x2048.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S63x2048.size (by sl_kernel_rfl) y
/-- What the accumulator holds after a point with k = 0. -/
def sout0_A (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : cond0_0 i) (hc1 : ¬cond0_1 i)
    (x0 : Vec F S63x1024 .f32) (x1 : Vec F S2048x1024 .f32) (x2 : Vec F S1x2048 .f32) : Vec F S63x2048 .f32 :=
  VS0.read (Elt F) (VS0.writes (Elt F) VS0.junk (kernelRun0_A c i arg2 harg2 arg3 harg3 arg4 harg4 arg5 harg5 arg6 harg6 hc0 hc1 x0 x1 x2).1)

/-- At 0 < k < 7 the store into the accumulator covers it. -/
theorem scover0_B (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : ¬cond0_1 i)
    (x0 : Vec F S63x1024 .f32) (x1 : Vec F S2048x1024 .f32) (x2 : Vec F S1x2048 .f32) (xs0 : Vec F S63x2048 .f32) (y : S63x2048.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S63x2048.size (by sl_kernel_rfl) y
/-- What the accumulator holds after a point with 0 < k < 7, from what the point before left. -/
def sout0_B (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : ¬cond0_1 i)
    (x0 : Vec F S63x1024 .f32) (x1 : Vec F S2048x1024 .f32) (x2 : Vec F S1x2048 .f32) (xs0 : Vec F S63x2048 .f32) : Vec F S63x2048 .f32 :=
  VS0.read (Elt F) (VS0.writes (Elt F) VS0.junk (kernelRun0_B c i arg2 harg2 arg3 harg3 arg4 harg4 arg5 harg5 arg6 harg6 hc0 hc1 x0 x1 x2 xs0).1)

/-- At k = 7 the store into the output's buffer covers it, -/
theorem cover0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) (y : S63x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S63x2048.size (by sl_kernel_rfl) y
/-- and what that buffer then holds. -/
def out0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) : Vec F S63x2048 .f32 :=
  VO0.read (Elt F) (VO0.writes (Elt F) VO0.junk (kernelRun0_C c i arg2 harg2 arg3 harg3 arg4 harg4 arg5 harg5 arg6 harg6 hc0 hc1 x0 x1 x2 xs0).1)
/-- At k = 7 the store into the accumulator covers it, -/
theorem scover0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) (y : S63x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S63x2048.size (by sl_kernel_rfl) y
/-- and what the accumulator then holds. -/
def sout0_C (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) : Vec F S63x2048 .f32 :=
  VS0.read (Elt F) (VS0.writes (Elt F) VS0.junk (kernelRun0_C c i arg2 harg2 arg3 harg3 arg4 harg4 arg5 harg5 arg6 harg6 hc0 hc1 x0 x1 x2 xs0).2.1)

/-! ## Point by point -/

/-- THE ACCUMULATION: the output's staging buffer and the accumulator after the body at position n. -/
def outsAt0 (c : Dev nD) : (n : ℕ) → n < cfg0.N → Vec F S63x2048 .f32 × Vec F S63x2048 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (idleOut, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards the
    accumulator at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 32 := lt_of_lt_of_eq t.isLt (show cfg0.N = 32 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hr⟩, Hg⟩
  isplitl [HS0 Hr]
  · isplitl [HS0]
    · iexists _; iexact HS0
    iexact Hr
  iexact Hg

end Regions

end Cert.KernelIdeal.Hand

end
-- ==== Proof.KernelIdeal.Run1.lean ====
/-
  The second kernel's body at any grid point, on whole staging memrefs: both input blocks are read and left as
  they were, and the output's buffer, found at anything, ends with the piece of the body's one store (the matrix
  product of the two blocks).
-/
import proofs.«125805_j52673478918325_2_alg».proof.Proof.KernelIdeal.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun1 (c : Dev nD) (i : grid1.Coords) (arg1 : Memref sig .tc .vmem S63x63 .f32) (harg1 : arg1.IsWhole) (arg2 : Memref sig .tc .vmem S4096x63 .f32) (harg2 : arg2.IsWhole) (arg3 : Memref sig .tc .vmem S63x4096 .f32) (harg3 : arg3.IsWhole)
    (x0 : Vec F S63x63 .f32) (x1 : Vec F S4096x63 .f32) :
    { L2 : List (View.Piece (Elt F) S63x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__s_ml_kernel i arg1 harg1 arg2 harg2 arg3 harg3) K } := by
  refine ⟨?_, fun E K => ?run⟩
  case run =>
    simp only [cc1__s_ml_kernel_eq_skeleton]; unfold cc1__s_ml_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KernelIdeal.Reg1.lean ====
/-
  The second pallas_call as a pipeline, at any instance F and any entry contents V: the output's staging buffer
  after the body at a grid point (the one store's piece: the product of the point's two input blocks), the proof
  data, and the body obligation at every point. Nothing is carried between points.
-/
import proofs.«125805_j52673478918325_2_alg».proof.Proof.KernelIdeal.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The body's store covers the output's buffer, -/
theorem cover1 (c : Dev nD) (i : grid1.Coords) (arg1 : Memref sig .tc .vmem S63x63 .f32) (harg1 : arg1.IsWhole) (arg2 : Memref sig .tc .vmem S4096x63 .f32) (harg2 : arg2.IsWhole) (arg3 : Memref sig .tc .vmem S63x4096 .f32) (harg3 : arg3.IsWhole)
    (x0 : Vec F S63x63 .f32) (x1 : Vec F S4096x63 .f32) (y : S63x4096.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S63x4096.size (by sl_kernel_rfl) y
/-- and what that buffer then holds. -/
def out1 (c : Dev nD) (i : grid1.Coords) (arg1 : Memref sig .tc .vmem S63x63 .f32) (harg1 : arg1.IsWhole) (arg2 : Memref sig .tc .vmem S4096x63 .f32) (harg2 : arg2.IsWhole) (arg3 : Memref sig .tc .vmem S63x4096 .f32) (harg3 : arg3.IsWhole)
    (x0 : Vec F S63x63 .f32) (x1 : Vec F S4096x63 .f32) : Vec F S63x4096 .f32 :=
  VO1.read (Elt F) (VO1.writes (Elt F) VO1.junk (kernelRun1 c i arg1 harg1 arg2 harg2 arg3 harg3 x0 x1).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 c (grid1.coords t) (ms1_0 t) (hs1_0 t) (ms1_1 t) (hs1_1 t) (ms1_2 t) (hs1_2 t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KernelIdeal.Main.lean ====
/-
  The whole program as a run: the contents of the TensorCore's unscoped buffers at each boundary between @main's
  four items (the bias re-read as one row; the first pallas_call; its result re-read row-major as 8192 × 63; the
  second pallas_call), each region's arrays at what its pipeline leaves and every other buffer as it was; the
  two regions as segments over those contents; and the run itself: every weakly fair execution terminates with
  every unscoped buffer at the last boundary's contents.
-/
import proofs.«125805_j52673478918325_2_alg».proof.Proof.KernelIdeal.Reg0
import proofs.«125805_j52673478918325_2_alg».proof.Proof.KernelIdeal.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the bias is re-read as one row (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first result is re-read row-major as 8192 × 63 (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.KernelIdeal.Args.lean ====
/-
  No item of @main writes an argument: the two host lines write only their own result buffers, the first
  pallas_call reads L and W through input windows and writes only its result, the second reads S through an
  input window. So each argument's buffer at the last boundary holds its launch contents, and the run gives the
  frame: every weakly fair execution terminates, nothing faults, the argument arrays end unchanged.
-/
import proofs.«125805_j52673478918325_2_alg».proof.Proof.KernelIdeal.Main
import proofs.«125805_j52673478918325_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W3_main_arg1 (c : Dev nD) : W3 m ρ c (Proc.devRef .tc main_arg1) = m ((c : Thread nD τ).loc main_arg1) :=
  (W3_of m ρ c main_arg1 (by decide)).trans (W2_main_arg1 m ρ c)

theorem W4_main_arg0 (c : Dev nD) : W4 m ρ c (Proc.devRef .tc main_arg0) = m ((c : Thread nD τ).loc main_arg0) :=
  (W4_of_ne m ρ c main_arg0 (by decide)).trans ((W3_of m ρ c main_arg0 (by decide)).trans (W2_main_arg0 m ρ c))
theorem W4_main_arg1 (c : Dev nD) : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (W3_main_arg1 m ρ c)
theorem W4_main_arg2 (c : Dev nD) : W4 m ρ c (Proc.devRef .tc main_arg2) = m ((c : Thread nD τ).loc main_arg2) :=
  (W4_of_ne m ρ c main_arg2 (by decide)).trans ((W3_of m ρ c main_arg2 (by decide)).trans (W2_main_arg2 m ρ c))
theorem W4_main_arg3 (c : Dev nD) : W4 m ρ c (Proc.devRef .tc main_arg3) = m ((c : Thread nD τ).loc main_arg3) :=
  (W4_of_ne m ρ c main_arg3 (by decide)).trans ((W3_of m ρ c main_arg3 (by decide)).trans (W2_main_arg3 m ρ c))

/-- The run with the result named and the arguments unchanged. -/
theorem run_named : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v3 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.KernelIdeal.Hand

end
-- ==== Proof.KernelIdeal.Pieces.lean ====
/-
  What the kernel bodies leave, read back as the arithmetic of the blocks they load: at k = 0 the accumulator
  holds zero plus the first block of the contraction, at k > 0 what it held plus this block, at k = 7 the
  output's buffer holds the maximum of zero and accumulator plus bias; the second kernel's output buffer holds
  the product of its two blocks.
-/
import proofs.«125805_j52673478918325_2_alg».proof.Proof.KernelIdeal.Reg0
import proofs.«125805_j52673478918325_2_alg».proof.Proof.KernelIdeal.Reg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of a store of a whole buffer. -/
theorem hz2 : (![0, 0] : Fin 2 → Nat) = fun _ => 0 := funext fun a => by fin_cases a <;> rfl

/-- The second kernel's output buffer holds the product of the two blocks loaded. -/
theorem out1_eq (c : Dev nD) (i : grid1.Coords) (arg1 : Memref sig .tc .vmem S63x63 .f32) (harg1 : arg1.IsWhole) (arg2 : Memref sig .tc .vmem S4096x63 .f32) (harg2 : arg2.IsWhole) (arg3 : Memref sig .tc .vmem S63x4096 .f32) (harg3 : arg3.IsWhole)
    (x0 : Vec F S63x63 .f32) (x1 : Vec F S4096x63 .f32) :
    out1 c i arg1 harg1 arg2 harg2 arg3 harg3 x0 x1 = Gen.k1_pay1 x0 x1 := by
  unfold out1
  rw [View.read_writes_eq_canon _ _ _ (cover1 c i arg1 harg1 arg2 harg2 arg3 harg3 x0 x1)]
  unfold kernelRun1
  dsimp only
  rw [View.canon_unit_zero hz2]
  simp only [View.readAt_eq_ld, harg1.read_unread, harg2.read_unread, View.ld_unit_zero (S := S63x63) hz2,
    View.ld_unit_zero (S := S4096x63) hz2]

/-- At k = 0 the accumulator ends at zero plus the first block of the contraction. -/
theorem sout0_A_eq (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : cond0_0 i) (hc1 : ¬cond0_1 i)
    (x0 : Vec F S63x1024 .f32) (x1 : Vec F S2048x1024 .f32) (x2 : Vec F S1x2048 .f32) :
    sout0_A c i arg2 harg2 arg3 harg3 arg4 harg4 arg5 harg5 arg6 harg6 hc0 hc1 x0 x1 x2 = Gen.k0_pay2 x0 x1 (Gen.k0_pay1 (F := F)) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S63x2048) hz2, View.readCov_unit_zero (S := S63x2048) _ hz2]
  simp only [View.readAt_eq_ld, harg2.read_unread, harg3.read_unread, View.ld_unit_zero (S := S63x1024) hz2,
    View.ld_unit_zero (S := S2048x1024) hz2]

/-- At 0 < k < 7 the accumulator ends at what it held plus this block of the contraction. -/
theorem sout0_B_eq (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : ¬cond0_1 i)
    (x0 : Vec F S63x1024 .f32) (x1 : Vec F S2048x1024 .f32) (x2 : Vec F S1x2048 .f32) (xs0 : Vec F S63x2048 .f32) :
    sout0_B c i arg2 harg2 arg3 harg3 arg4 harg4 arg5 harg5 arg6 harg6 hc0 hc1 x0 x1 x2 xs0 = Gen.k0_pay2 x0 x1 xs0 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg6.read_unread, View.ld_unit_zero (S := S63x1024) hz2,
    View.ld_unit_zero (S := S2048x1024) hz2, View.ld_unit_zero (S := S63x2048) hz2]

/-- At k = 7 likewise, -/
theorem sout0_C_eq (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) :
    sout0_C c i arg2 harg2 arg3 harg3 arg4 harg4 arg5 harg5 arg6 harg6 hc0 hc1 x0 x1 x2 xs0 = Gen.k0_pay2 x0 x1 xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread, View.ld_unit_zero (S := S63x1024) hz2,
    View.ld_unit_zero (S := S2048x1024) hz2, View.ld_unit_zero (S := S63x2048) hz2]

/-- and the output's buffer takes the maximum of zero and that accumulator plus the bias row. -/
theorem out0_C_eq (c : Dev nD) (i : grid0.Coords) (arg2 : Memref sig .tc .vmem S63x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S63x2048 .f32) (harg5 : arg5.IsWhole) (arg6 : Memref sig .tc .vmem S63x2048 .f32) (harg6 : arg6.IsWhole) (hc0 : ¬cond0_0 i) (hc1 : cond0_1 i)
    (x0 : Vec F S63x1024 .f32) (x1 : Vec F S2048x1024 .f32) (x2 : Vec F S1x2048 .f32) (xs0 : Vec F S63x2048 .f32) :
    out0_C c i arg2 harg2 arg3 harg3 arg4 harg4 arg5 harg5 arg6 harg6 hc0 hc1 x0 x1 x2 xs0 = Gen.k0_pay3 (Gen.k0_pay2 x0 x1 xs0) x2 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S63x2048) _ hz2]
  simp only [View.readAt_eq_ld, harg2.read_unread, harg3.read_unread, harg4.read_unread, harg6.read_unread, View.ld_unit_zero (S := S63x1024) hz2,
    View.ld_unit_zero (S := S2048x1024) hz2, View.ld_unit_zero (S := S63x2048) hz2, View.ld_unit_zero (S := S1x2048) hz2]

end Cert.KernelIdeal.Hand

end
-- ==== Proof.KernelIdeal.Payloads.lean ====
/-
  The arithmetic of the kernel bodies, read at an index over the extended reals: the zero written into the
  accumulator, one block of the contraction added to the accumulator, the bias added and the maximum with zero
  taken, and the product with S along the short axis.
-/
import proofs.«125805_j52673478918325_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Facts₀

/-- A product contracting the second axis of both operands, into the zero accumulator, at row p and column q:
    the sum over the shared axis (one block of 1024). -/
theorem matmul_block_apply (a : FVec Ideal S63x1024 .bf16) (b : FVec Ideal S2048x1024 .bf16) (p : Fin 63) (q : Fin 2048) :
    FloatOps.matmul Cert.KernelIdeal.dot_S63x1024_S2048x1024_S63x2048_1_1_0_0_n_n none a b (constant S63x2048 .f32 0x00000000#32) (ix2 p q)
      = ∑ kk : Fin 1024, a (ix2 p kk) * b (ix2 q kk) := by
  rw [Ideal.matmul_constant_zero_apply, ← Equiv.sum_comp (ValueIdx.contrEquiv1 Cert.KernelIdeal.dot_S63x1024_S2048x1024_S63x2048_1_1_0_0_n_n 1024 rfl rfl).symm]
  refine Finset.sum_congr rfl fun k _ => ?_
  have hk := ValueIdx.contrEquiv1_symm_val Cert.KernelIdeal.dot_S63x1024_S2048x1024_S63x2048_1_1_0_0_n_n 1024 rfl rfl k
  have el : Cert.KernelIdeal.dot_S63x1024_S2048x1024_S63x2048_1_1_0_0_n_n.lhsIdx (ix2 p q) ((ValueIdx.contrEquiv1 Cert.KernelIdeal.dot_S63x1024_S2048x1024_S63x2048_1_1_0_0_n_n 1024 rfl rfl).symm k) = ix2 p k := funext fun ax => Fin.ext (by
    match ax with
    | ⟨0, _⟩ =>
      show (Cert.KernelIdeal.dot_S63x1024_S2048x1024_S63x2048_1_1_0_0_n_n.lhsIdx (ix2 p q) _ 0).val = p.val
      unfold DotDims.lhsIdx
      rw [dif_neg (show ¬(0 : Fin S63x1024.rank) ∈ Cert.KernelIdeal.dot_S63x1024_S2048x1024_S63x2048_1_1_0_0_n_n.lhsBatch by decide), dif_pos (show (0 : Fin S63x1024.rank) ∈ Cert.KernelIdeal.dot_S63x1024_S2048x1024_S63x2048_1_1_0_0_n_n.lhsNonContracting by decide)]
      rfl
    | ⟨1, _⟩ => exact (Cert.KernelIdeal.dot_S63x1024_S2048x1024_S63x2048_1_1_0_0_n_n.lhsIdx_val_of_single rfl (ix2 p q) _).trans hk)
  have er : Cert.KernelIdeal.dot_S63x1024_S2048x1024_S63x2048_1_1_0_0_n_n.rhsIdx (ix2 p q) ((ValueIdx.contrEquiv1 Cert.KernelIdeal.dot_S63x1024_S2048x1024_S63x2048_1_1_0_0_n_n 1024 rfl rfl).symm k) = ix2 q k := funext fun ax => Fin.ext (by
    match ax with
    | ⟨0, _⟩ =>
      show (Cert.KernelIdeal.dot_S63x1024_S2048x1024_S63x2048_1_1_0_0_n_n.rhsIdx (ix2 p q) _ 0).val = q.val
      unfold DotDims.rhsIdx
      rw [dif_neg (show ¬(0 : Fin S2048x1024.rank) ∈ Cert.KernelIdeal.dot_S63x1024_S2048x1024_S63x2048_1_1_0_0_n_n.rhsBatch by decide), dif_pos (show (0 : Fin S2048x1024.rank) ∈ Cert.KernelIdeal.dot_S63x1024_S2048x1024_S63x2048_1_1_0_0_n_n.rhsNonContracting by decide)]
      rfl
    | ⟨1, _⟩ => exact (Cert.KernelIdeal.dot_S63x1024_S2048x1024_S63x2048_1_1_0_0_n_n.rhsIdx_val_of_single rfl (ix2 p q) _).trans hk)
  rw [el, er]

/-- The same for the product with S: the shared axis has 63 entries. -/
theorem matmul_s_apply (a : FVec Ideal S63x63 .bf16) (b : FVec Ideal S4096x63 .bf16) (p : Fin 63) (q : Fin 4096) :
    FloatOps.matmul Cert.KernelIdeal.dot_S63x63_S4096x63_S63x4096_1_1_0_0_n_n none a b (constant S63x4096 .f32 0x00000000#32) (ix2 p q)
      = ∑ j : Fin 63, a (ix2 p j) * b (ix2 q j) := by
  rw [Ideal.matmul_constant_zero_apply, ← Equiv.sum_comp (ValueIdx.contrEquiv1 Cert.KernelIdeal.dot_S63x63_S4096x63_S63x4096_1_1_0_0_n_n 63 rfl rfl).symm]
  refine Finset.sum_congr rfl fun k _ => ?_
  have hk := ValueIdx.contrEquiv1_symm_val Cert.KernelIdeal.dot_S63x63_S4096x63_S63x4096_1_1_0_0_n_n 63 rfl rfl k
  have el : Cert.KernelIdeal.dot_S63x63_S4096x63_S63x4096_1_1_0_0_n_n.lhsIdx (ix2 p q) ((ValueIdx.contrEquiv1 Cert.KernelIdeal.dot_S63x63_S4096x63_S63x4096_1_1_0_0_n_n 63 rfl rfl).symm k) = ix2 p k := funext fun ax => Fin.ext (by
    match ax with
    | ⟨0, _⟩ =>
      show (Cert.KernelIdeal.dot_S63x63_S4096x63_S63x4096_1_1_0_0_n_n.lhsIdx (ix2 p q) _ 0).val = p.val
      unfold DotDims.lhsIdx
      rw [dif_neg (show ¬(0 : Fin S63x63.rank) ∈ Cert.KernelIdeal.dot_S63x63_S4096x63_S63x4096_1_1_0_0_n_n.lhsBatch by decide), dif_pos (show (0 : Fin S63x63.rank) ∈ Cert.KernelIdeal.dot_S63x63_S4096x63_S63x4096_1_1_0_0_n_n.lhsNonContracting by decide)]
      rfl
    | ⟨1, _⟩ => exact (Cert.KernelIdeal.dot_S63x63_S4096x63_S63x4096_1_1_0_0_n_n.lhsIdx_val_of_single rfl (ix2 p q) _).trans hk)
  have er : Cert.KernelIdeal.dot_S63x63_S4096x63_S63x4096_1_1_0_0_n_n.rhsIdx (ix2 p q) ((ValueIdx.contrEquiv1 Cert.KernelIdeal.dot_S63x63_S4096x63_S63x4096_1_1_0_0_n_n 63 rfl rfl).symm k) = ix2 q k := funext fun ax => Fin.ext (by
    match ax with
    | ⟨0, _⟩ =>
      show (Cert.KernelIdeal.dot_S63x63_S4096x63_S63x4096_1_1_0_0_n_n.rhsIdx (ix2 p q) _ 0).val = q.val
      unfold DotDims.rhsIdx
      rw [dif_neg (show ¬(0 : Fin S4096x63.rank) ∈ Cert.KernelIdeal.dot_S63x63_S4096x63_S63x4096_1_1_0_0_n_n.rhsBatch by decide), dif_pos (show (0 : Fin S4096x63.rank) ∈ Cert.KernelIdeal.dot_S63x63_S4096x63_S63x4096_1_1_0_0_n_n.rhsNonContracting by decide)]
      rfl
    | ⟨1, _⟩ => exact (Cert.KernelIdeal.dot_S63x63_S4096x63_S63x4096_1_1_0_0_n_n.rhsIdx_val_of_single rfl (ix2 p q) _).trans hk)
  rw [el, er]

/-- The accumulator's first value: zero everywhere. -/
theorem pay1_apply (p : Fin 63) (q : Fin 2048) :
    Gen.k0_pay1 (F := Ideal) (ix2 p q) = Ideal.ofBits .f32 0x00000000#32 := by
  unfold Gen.k0_pay1
  rw [shapeCast_self]
  rfl

/-- One step of the accumulation: the accumulator plus one block of 1024 terms of the contraction. -/
theorem pay2_apply (v3 : Vec Ideal S63x1024 .f32) (v5 : Vec Ideal S2048x1024 .f32) (v8 : Vec Ideal S63x2048 .f32)
    (p : Fin 63) (q : Fin 2048) :
    Gen.k0_pay2 v3 v5 v8 (ix2 p q) = v8 (ix2 p q) + ∑ kk : Fin 1024, v3 (ix2 p kk) * v5 (ix2 q kk) := by
  unfold Gen.k0_pay2
  rw [shapeCast_self]
  refine (addf_apply _ _ _).trans ?_
  refine congrArg (v8 (ix2 p q) + ·) ?_
  refine (matmul_block_apply _ _ p q).trans ?_
  rfl

/-- The last step: the bias added along the columns, then the maximum with zero. -/
theorem pay3_apply (v16 : Vec Ideal S63x2048 .f32) (v17 : Vec Ideal S1x2048 .f32) (p : Fin 63) (q : Fin 2048) :
    Gen.k0_pay3 v16 v17 (ix2 p q)
      = max (v16 (ix2 p q) + v17 (ix2 (0 : Fin 1) q)) (Ideal.ofBits .f32 0x00000000#32) := by
  unfold Gen.k0_pay3
  rw [shapeCast_self]
  refine (maximumf_apply _ _ _).trans ?_
  refine congrArg₂ max ?_ rfl
  refine (addf_apply _ _ _).trans ?_
  refine congrArg (v16 (ix2 p q) + ·) ?_
  exact broadcastTo_1b_ab_apply v17 _ p q

/-- The second kernel: the product with S along the axis of 63 entries. -/
theorem k1_pay1_apply (v0 : Vec Ideal S63x63 .f32) (v2 : Vec Ideal S4096x63 .f32) (p : Fin 63) (q : Fin 4096) :
    Gen.k1_pay1 v0 v2 (ix2 p q) = ∑ j : Fin 63, v0 (ix2 p j) * v2 (ix2 q j) := by
  unfold Gen.k1_pay1
  rw [shapeCast_self]
  refine (matmul_s_apply _ _ p q).trans ?_
  rfl

end Cert.KernelIdeal.Pay

end
-- ==== Proof.SumSplit.lean ====
/-
  A sum over 8192 terms is the sum over 8 consecutive blocks of 1024 terms.
-/
import Idealize.ShloMosaic.PureOps.Ideal

namespace Cert.Spec

open scoped BigOperators

/-- The position a·1024 + kk of the kk-th term of block a, as a bijection from pairs to positions. -/
def blockEquiv : Fin 8 × Fin 1024 ≃ Fin 8192 where
  toFun x := ⟨x.1.val * 1024 + x.2.val, by have := x.1.isLt; have := x.2.isLt; omega⟩
  invFun k := (⟨k.val / 1024, by have := k.isLt; omega⟩, ⟨k.val % 1024, by omega⟩)
  left_inv x := by
    obtain ⟨a, kk⟩ := x
    have ha := a.isLt
    have hk := kk.isLt
    refine Prod.ext (Fin.ext ?_) (Fin.ext ?_)
    · show (a.val * 1024 + kk.val) / 1024 = a.val
      omega
    · show (a.val * 1024 + kk.val) % 1024 = kk.val
      omega
  right_inv k := by
    refine Fin.ext ?_
    show k.val / 1024 * 1024 + k.val % 1024 = k.val
    omega

/-- Over any commutative additive monoid. -/
theorem sum_blocks_gen {M : Type} [AddCommMonoid M] (f : Fin 8192 → M) :
    ∑ k : Fin 8192, f k
      = ∑ a : Fin 8, ∑ kk : Fin 1024, f ⟨a.val * 1024 + kk.val, by have := a.isLt; have := kk.isLt; omega⟩ := by
  rw [← Equiv.sum_comp blockEquiv f, Fintype.sum_prod_type]
  rfl

/-- Over the extended reals. -/
theorem sum_blocks (f : Fin 8192 → EReal) :
    ∑ k : Fin 8192, f k
      = ∑ a : Fin 8, ∑ kk : Fin 1024, f ⟨a.val * 1024 + kk.val, by have := a.isLt; have := kk.isLt; omega⟩ :=
  sum_blocks_gen f

end Cert.Spec
-- ==== Proof.KernelIdeal.Value0.lean ====
/-
  What the first pallas_call leaves in its result array, over the extended reals. The accumulator after the
  point (n, k) holds, at row p and column q of the block, zero plus the sum over the blocks 0 … k of the
  contraction of the products L p · W (2048 n + q) ·; at k = 7 that is the whole sum over the 8192 terms, the
  output block takes its maximum with zero after the bias is added, and the four blocks written back at
  k = 7 tile the 63 × 8192 array.
-/
import proofs.«125805_j52673478918325_2_alg».proof.Proof.KernelIdeal.Reg0
import proofs.«125805_j52673478918325_2_alg».proof.Proof.KernelIdeal.Pieces
import proofs.«125805_j52673478918325_2_alg».proof.Proof.KernelIdeal.Payloads
import proofs.«125805_j52673478918325_2_alg».proof.Proof.SumSplit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

section Regions
variable (V : (c : Dev nD) → (b : Ref sig .tc) → Buf (Elt Ideal) ((c : Thread nD τ).loc b))

/-- The three arrays the first pallas_call reads, as the region finds them. -/
abbrev Larr (c : Dev nD) : FVec Ideal S63x8192 .f32 := V c main_arg0
abbrev Warr (c : Dev nD) : FVec Ideal S8192x8192 .f32 := V c main_arg2
abbrev Barr (c : Dev nD) : FVec Ideal S1x8192 .f32 := V c main_v0

/-- The block index maps over the grid, point t = 8 n + k: the rows of L are whole and its columns move with k, W's rows
    move with n and its columns with k, the bias row and the output move with n. -/
theorem idx0 : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 2) = 0 ∧ win0_3.index t (1 : Fin 2) = t.val / 8 :=
  (by decide +kernel : ∀ t : Fin grid0.N, _)

theorem tlt (t : Fin cfg0.N) : t.val < 32 := lt_of_lt_of_eq t.isLt (show cfg0.N = 32 from N_0)

/-- L's block at a point, at row p and column kk: column 1024 k + kk of L. -/
theorem blk0_0_apply (c : Dev nD) (t : Fin cfg0.N) (p : Fin 63) (kk : Fin 1024) :
    (iblk0 V c 0 t : Vec Ideal S63x1024 .f32) (ix2 p kk)
      = Larr V c (ix2 p (⟨t.val % 8 * 1024 + kk.val, by have := kk.isLt; omega⟩ : Fin 8192)) := by
  unfold iblk0
  rewrite [View.read_apply]
  show V c main_arg0 _ = V c main_arg0 _
  refine congrArg (V c main_arg0) ?_
  obtain ⟨e0, e1, -⟩ := idx0 t
  funext a; apply Fin.ext
  match a with
  | ⟨0, _⟩ => show win0_0.index t (0 : Fin 2) * 63 + 1 * p.val = p.val; omega
  | ⟨1, _⟩ => show win0_0.index t (1 : Fin 2) * 1024 + 1 * kk.val = t.val % 8 * 1024 + kk.val; omega

/-- W's block at a point, at row q and column kk: row 2048 n + q, column 1024 k + kk of W. -/
theorem blk0_1_apply (c : Dev nD) (t : Fin cfg0.N) (q : Fin 2048) (kk : Fin 1024) :
    (iblk0 V c 1 t : Vec Ideal S2048x1024 .f32) (ix2 q kk)
      = Warr V c (ix2 (⟨t.val / 8 * 2048 + q.val, by have := q.isLt; have := tlt t; omega⟩ : Fin 8192) (⟨t.val % 8 * 1024 + kk.val, by have := kk.isLt; omega⟩ : Fin 8192)) := by
  unfold iblk0
  rewrite [View.read_apply]
  show V c main_arg2 _ = V c main_arg2 _
  refine congrArg (V c main_arg2) ?_
  obtain ⟨-, -, e2, e3, -⟩ := idx0 t
  funext a; apply Fin.ext
  match a with
  | ⟨0, _⟩ => show win0_1.index t (0 : Fin 2) * 2048 + 1 * q.val = t.val / 8 * 2048 + q.val; omega
  | ⟨1, _⟩ => show win0_1.index t (1 : Fin 2) * 1024 + 1 * kk.val = t.val % 8 * 1024 + kk.val; omega

/-- The bias row's block at a point, at column q: column 2048 n + q. -/
theorem blk0_2_apply (c : Dev nD) (t : Fin cfg0.N) (q : Fin 2048) :
    (iblk0 V c 2 t : Vec Ideal S1x2048 .f32) (ix2 (0 : Fin 1) q)
      = Barr V c (ix2 (0 : Fin 1) (⟨t.val / 8 * 2048 + q.val, by have := q.isLt; have := tlt t; omega⟩ : Fin 8192)) := by
  unfold iblk0
  rewrite [View.read_apply]
  show V c main_v0 _ = V c main_v0 _
  refine congrArg (V c main_v0) ?_
  obtain ⟨-, -, -, -, e4, e5, -⟩ := idx0 t
  funext a; apply Fin.ext
  match a with
  | ⟨0, _⟩ => show win0_2.index t (0 : Fin 2) * 1 + 1 * 0 = 0; omega
  | ⟨1, _⟩ => show win0_2.index t (1 : Fin 2) * 2048 + 1 * q.val = t.val / 8 * 2048 + q.val; omega

/-! ## The accumulator is a fold over k -/

/-- The accumulator after a point with k = 0, -/
def accA (c : Dev nD) (n : ℕ) (h : n < cfg0.N) : Vec Ideal S63x2048 .f32 :=
  Gen.k0_pay2 (iblk0 V c 0 ⟨n, h⟩) (iblk0 V c 1 ⟨n, h⟩) (Gen.k0_pay1 (F := Ideal))
/-- and after a later point, from what the point before left. -/
def accG (c : Dev nD) (n : ℕ) (h : n < cfg0.N) (acc : Vec Ideal S63x2048 .f32) : Vec Ideal S63x2048 .f32 :=
  Gen.k0_pay2 (iblk0 V c 0 ⟨n, h⟩) (iblk0 V c 1 ⟨n, h⟩) acc

set_option maxHeartbeats 800000 in
theorem acc_reset (c : Dev nD) (n : ℕ) (h : n < cfg0.N) (h0 : n % 8 = 0) : (outsAt0 V c n h).2 = accA V c n h := by
  have h1 : ¬(⟨n, h⟩ : Fin cfg0.N).val % 8 = 7 := by dsimp only; omega
  rewrite [outsAt0_A V c ⟨n, h⟩ h0 h1]
  dsimp only
  unfold accA
  exact sout0_A_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0 (Memref.isWhole_whole _) ((hcond0_0 ⟨n, h⟩).mpr h0) (fun hh => h1 ((hcond0_1 ⟨n, h⟩).mp hh)) (iblk0 V c 0 ⟨n, h⟩) (iblk0 V c 1 ⟨n, h⟩) (iblk0 V c 2 ⟨n, h⟩)

set_option maxHeartbeats 800000 in
theorem acc_step (c : Dev nD) (n : ℕ) (h : n + 1 < cfg0.N) (h0 : ¬(n + 1) % 8 = 0) :
    (outsAt0 V c (n + 1) h).2 = accG V c (n + 1) h ((outsAt0 V c n (Nat.lt_of_succ_lt h)).2) := by
  by_cases h1 : (n + 1) % 8 = 7
  · rewrite [outsAt0_C V c ⟨n + 1, h⟩ h0 h1]
    dsimp only
    unfold accG
    exact sout0_C_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (iblk0 V c 2 ⟨n + 1, h⟩) ((outsAt0 V c n (Nat.lt_of_succ_lt h)).2)
  · rewrite [outsAt0_B V c ⟨n + 1, h⟩ h0 h1]
    dsimp only
    unfold accG
    exact sout0_B_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (iblk0 V c 2 ⟨n + 1, h⟩) ((outsAt0 V c n (Nat.lt_of_succ_lt h)).2)

theorem acc_eq (c : Dev nD) (t : ℕ) (ht : t < cfg0.N) (h' : 8 * (t / 8) + t % 8 < cfg0.N) :
    (outsAt0 V c t ht).2 = Pipeline.accAt (accA V c) (accG V c) (8 * (t / 8)) (t % 8) h' :=
  Pipeline.eq_accAt_of_mod (fun n h => (outsAt0 V c n h).2) 8 (accA V c) (accG V c) (acc_reset V c) (acc_step V c) (by decide) t ht h'

/-- What one point adds at row p and column q of the block: its 1024 terms of the contraction. -/
def addend (c : Dev nD) (n : ℕ) (p : Fin 63) (q : Fin 2048) : EReal :=
  ∑ kk : Fin 1024, Larr V c (ix2 p (⟨n % 8 * 1024 + kk.val, by have := kk.isLt; omega⟩ : Fin 8192))
    * Warr V c (ix2 (⟨n / 8 % 4 * 2048 + q.val, by have := q.isLt; omega⟩ : Fin 8192) (⟨n % 8 * 1024 + kk.val, by have := kk.isLt; omega⟩ : Fin 8192))

theorem pay2_blocks (c : Dev nD) (n : ℕ) (h : n < cfg0.N) (acc : Vec Ideal S63x2048 .f32) (p : Fin 63) (q : Fin 2048) :
    Gen.k0_pay2 (iblk0 V c 0 ⟨n, h⟩) (iblk0 V c 1 ⟨n, h⟩) acc (ix2 p q) = acc (ix2 p q) + addend V c n p q := by
  refine (Pay.pay2_apply _ _ acc p q).trans ?_
  refine congrArg (acc (ix2 p q) + ·) ?_
  unfold addend
  refine Finset.sum_congr rfl fun kk _ => ?_
  have hn : n < 32 := lt_of_lt_of_eq h (show cfg0.N = 32 from N_0)
  rewrite [blk0_0_apply V c ⟨n, h⟩ p kk, blk0_1_apply V c ⟨n, h⟩ q kk]
  refine congrArg (_ * ·) (congrArg (Warr V c) (congrArg₂ ix2 (Fin.ext ?_) rfl))
  show n / 8 * 2048 + q.val = n / 8 % 4 * 2048 + q.val
  omega

theorem acc_apply (c : Dev nD) (b : ℕ) (j : ℕ) (hj : j ≤ 7) (h : b + j < cfg0.N) (p : Fin 63) (q : Fin 2048) :
    Pipeline.accAt (accA V c) (accG V c) b j h (ix2 p q)
      = Ideal.ofBits .f32 0x00000000#32 + ∑ s ∈ Finset.range (j + 1), addend V c (b + s) p q :=
  Pipeline.accAt_add_apply (accA V c) (accG V c) (fun _ => Ideal.ofBits .f32 0x00000000#32)
    (fun n i => addend V c n ⟨(i 0).val, (i 0).isLt⟩ ⟨(i 1).val, (i 1).isLt⟩) b 7
    (fun hb i => by
      obtain ⟨p', q', rfl⟩ : ∃ (p' : Fin 63) (q' : Fin 2048), i = ix2 p' q' := ⟨i 0, i 1, eq_ix2 i⟩
      show Gen.k0_pay2 (F := Ideal) _ _ _ (ix2 p' q') = _ + addend V c b p' q'
      rw [pay2_blocks V c b hb _ p' q', Pay.pay1_apply])
    (fun n hn acc i _ _ => by
      obtain ⟨p', q', rfl⟩ : ∃ (p' : Fin 63) (q' : Fin 2048), i = ix2 p' q' := ⟨i 0, i 1, eq_ix2 i⟩
      show Gen.k0_pay2 (F := Ideal) _ _ acc (ix2 p' q') = acc (ix2 p' q') + addend V c n p' q'
      exact pay2_blocks V c n hn acc p' q')
    j hj h (ix2 p q)

/-- The eight addends of a run of points n fixed, k = 0 … 7, are the whole contraction. -/
theorem addend_sum (c : Dev nD) (nb : ℕ) (hnb : nb < 4) (p : Fin 63) (q : Fin 2048) :
    ∑ s ∈ Finset.range 8, addend V c (8 * nb + s) p q
      = ∑ k : Fin 8192, Larr V c (ix2 p k) * Warr V c (ix2 (⟨nb * 2048 + q.val, by have := q.isLt; omega⟩ : Fin 8192) k) := by
  rewrite [Cert.Spec.sum_blocks (fun k => Larr V c (ix2 p k) * Warr V c (ix2 (⟨nb * 2048 + q.val, by have := q.isLt; omega⟩ : Fin 8192) k)),
    Finset.sum_range]
  refine Finset.sum_congr rfl fun a _ => ?_
  unfold addend
  refine Finset.sum_congr rfl fun kk _ => ?_
  have ha := a.isLt
  refine congrArg₂ (· * ·) (congrArg (Larr V c) (congrArg₂ ix2 rfl (Fin.ext ?_)))
    (congrArg (Warr V c) (congrArg₂ ix2 (Fin.ext ?_) (Fin.ext ?_)))
  · show (8 * nb + a.val) % 8 * 1024 + kk.val = a.val * 1024 + kk.val; omega
  · show (8 * nb + a.val) / 8 % 4 * 2048 + q.val = nb * 2048 + q.val; omega
  · show (8 * nb + a.val) % 8 * 1024 + kk.val = a.val * 1024 + kk.val; omega

/-! ## The result array -/

/-- What the first pallas_call's result array ends holding. -/
def X0 (c : Dev nD) : S63x8192.Idx → EReal := fun i =>
  max ((Ideal.ofBits .f32 0x00000000#32
      + ∑ k : Fin 8192, Larr V c (ix2 (⟨(i 0).val, (i 0).isLt⟩ : Fin 63) k) * Warr V c (ix2 (⟨(i 1).val, (i 1).isLt⟩ : Fin 8192) k))
    + Barr V c (ix2 (0 : Fin 1) (⟨(i 1).val, (i 1).isLt⟩ : Fin 8192))) (Ideal.ofBits .f32 0x00000000#32)

set_option maxHeartbeats 800000 in
/-- At k = 7 the output's buffer is the last payload of the accumulator and the bias block. -/
theorem out_flush (c : Dev nD) (t : Fin cfg0.N) (h1 : t.val % 8 = 7) :
    (outsAt0 V c t.val t.isLt).1 = Gen.k0_pay3 ((outsAt0 V c t.val t.isLt).2) (iblk0 V c 2 t) := by
  have h0 : ¬ t.val % 8 = 0 := by omega
  rewrite [outsAt0_C V c t h0 h1]
  dsimp only
  exact (out0_C_eq (F := Ideal) c (grid0.coords t) (ms0_0 t) (hs0_0 t) (ms0_1 t) (hs0_1 t) (ms0_2 t) (hs0_2 t) (ms0_3 t) (hs0_3 t) scM0 (Memref.isWhole_whole _) (fun hh => h0 ((hcond0_0 t).mp hh)) ((hcond0_1 t).mpr h1) (iblk0 V c 0 t) (iblk0 V c 1 t) (iblk0 V c 2 t) ((outsAt0 V c (t.val - 1) (Nat.lt_of_le_of_lt (Nat.sub_le _ _) t.isLt)).2)).trans
    (congrArg (Gen.k0_pay3 · (iblk0 V c 2 t)) (sout0_C_eq (F := Ideal) c (grid0.coords t) (ms0_0 t) (hs0_0 t) (ms0_1 t) (hs0_1 t) (ms0_2 t) (hs0_2 t) (ms0_3 t) (hs0_3 t) scM0 (Memref.isWhole_whole _) (fun hh => h0 ((hcond0_0 t).mp hh)) ((hcond0_1 t).mpr h1) (iblk0 V c 0 t) (iblk0 V c 1 t) (iblk0 V c 2 t) ((outsAt0 V c (t.val - 1) (Nat.lt_of_le_of_lt (Nat.sub_le _ _) t.isLt)).2)).symm)

theorem flushed3_eq (c : Dev nD) (t : Fin cfg0.N) (hf : (cfg0.win 3).flush t = true) :
    (dat0 V c).flushed 3 t = ((cfg0.win 3).blk t).view.read (Elt Ideal) (X0 V c) := by
  have h7 : t.val % 8 = 7 := (flush0_3 t).mp hf
  have ht := tlt t
  show (cfg0.win 3).cut (grid0.coords t) ((dat0 V c).after 3 t) = _
  rewrite [after0_3, out_flush V c t h7]
  obtain ⟨-, -, -, -, -, -, e6, e7⟩ := idx0 t
  funext y
  obtain ⟨p, q, rfl⟩ : ∃ (p : Fin 63) (q : Fin 2048), y = ix2 p q := ⟨y 0, y 1, eq_ix2 y⟩
  have hemb : ((cfg0.win 3).blk t).view.emb (ix2 p q) = ix2 p (⟨t.val / 8 * 2048 + q.val, by have := q.isLt; omega⟩ : Fin 8192) := by
    funext a; apply Fin.ext
    match a with
    | ⟨0, _⟩ => show win0_3.index t (0 : Fin 2) * 63 + 1 * p.val = p.val; omega
    | ⟨1, _⟩ => show win0_3.index t (1 : Fin 2) * 2048 + 1 * q.val = t.val / 8 * 2048 + q.val; omega
  show Gen.k0_pay3 (F := Ideal) _ _ (ix2 p q) = X0 V c (((cfg0.win 3).blk t).view.emb (ix2 p q))
  rewrite [hemb, Pay.pay3_apply, blk0_2_apply V c t q, acc_eq V c t.val t.isLt (by have := t.isLt; omega),
    acc_apply V c (8 * (t.val / 8)) (t.val % 8) (by omega) _ p q, h7, addend_sum V c (t.val / 8) (by omega) p q]
  rfl

/-- An index of the array is in a point's block iff each coordinate is in the block's range on its axis. -/
theorem mem_blk3 (t : Fin cfg0.N) (i : S63x8192.Idx) :
    i ∈ ((cfg0.win 3).blk t).view.set ↔ ∀ a : Fin 2, win0_3.index t a * S63x2048.size a ≤ (i a).val ∧ (i a).val < win0_3.index t a * S63x2048.size a + S63x2048.size a := by
  show i ∈ ((View.whole main_v1).slice (win0_3.rect t)).set ↔ _
  rewrite [View.set_slice_whole, Rect.mem_set_unit]
  exact Iff.rfl

/-- Every index of the result array is in the block written back at the last point of its run. -/
theorem cover3 (i : S63x8192.Idx) : ∃ t : Fin cfg0.N, (cfg0.win 3).flush t = true ∧ i ∈ ((cfg0.win 3).blk t).view.set := by
  have h0 : (i 0).val < 63 := (i 0).isLt
  have h1 : (i 1).val < 8192 := (i 1).isLt
  have hN : cfg0.N = 32 := N_0
  have hlt : 8 * ((i 1).val / 2048) + 7 < cfg0.N := by rewrite [hN]; omega
  obtain ⟨-, -, -, -, -, -, e6, e7⟩ := idx0 ⟨8 * ((i 1).val / 2048) + 7, hlt⟩
  dsimp only at e6 e7
  refine ⟨⟨8 * ((i 1).val / 2048) + 7, hlt⟩, (flush0_3 _).mpr (by dsimp only; omega), ?_⟩
  rewrite [mem_blk3]
  intro a
  match a with
  | ⟨0, _⟩ => show win0_3.index ⟨8 * ((i 1).val / 2048) + 7, hlt⟩ (0 : Fin 2) * 63 ≤ (i 0).val ∧ (i 0).val < win0_3.index ⟨8 * ((i 1).val / 2048) + 7, hlt⟩ (0 : Fin 2) * 63 + 63
              rewrite [e6]; omega
  | ⟨1, _⟩ => show win0_3.index ⟨8 * ((i 1).val / 2048) + 7, hlt⟩ (1 : Fin 2) * 2048 ≤ (i 1).val ∧ (i 1).val < win0_3.index ⟨8 * ((i 1).val / 2048) + 7, hlt⟩ (1 : Fin 2) * 2048 + 2048
              rewrite [e7]; omega

theorem final3 (c : Dev nD) : (dat0 V c).arrAt 3 cfg0.N = X0 V c :=
  (dat0 V c).arrAt_eq_of_cover 3 (X0 V c) (flushed3_eq V c) (fun i => cover3 i)

end Regions

end Cert.KernelIdeal.Hand

end
-- ==== Proof.KernelIdeal.Value1.lean ====
/-
  What the second pallas_call leaves in its result array, over the extended reals: at row p and column r the sum
  over j of S p j · ML r j. Each of the two grid points computes the product of S with a block of 4096 rows of ML and
  writes it to the block of 4096 columns of the result with the same number; the two blocks tile the 63 × 8192 array.
-/
import proofs.«125805_j52673478918325_2_alg».proof.Proof.KernelIdeal.Reg1
import proofs.«125805_j52673478918325_2_alg».proof.Proof.KernelIdeal.Pieces
import proofs.«125805_j52673478918325_2_alg».proof.Proof.KernelIdeal.Payloads
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

section Regions
variable (V : (c : Dev nD) → (b : Ref sig .tc) → Buf (Elt Ideal) ((c : Thread nD τ).loc b))

/-- The two arrays the second pallas_call reads, as arrays of extended reals: S, and ML (the first result re-read
    as 8192 × 63). -/
abbrev Sarr (c : Dev nD) : FVec Ideal S63x63 .f32 := V c main_arg1
abbrev MLarr (c : Dev nD) : FVec Ideal S8192x63 .f32 := V c main_v2

/-- The block index maps over the grid of two points: S is one whole block, the rows of ML and the columns of the
    result move with the point. -/
theorem idx1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

theorem tlt1 (t : Fin cfg1.N) : t.val < 2 := lt_of_lt_of_eq t.isLt (show cfg1.N = 2 from N_1)

/-- S's block at a point is S. -/
theorem blk1_0_apply (c : Dev nD) (t : Fin cfg1.N) (p : Fin 63) (j : Fin 63) :
    (iblk1 V c 0 t : Vec Ideal S63x63 .f32) (ix2 p j) = Sarr V c (ix2 p j) := by
  unfold iblk1
  rw [View.read_apply]
  show V c main_arg1 _ = V c main_arg1 _
  refine congrArg (V c main_arg1) ?_
  obtain ⟨e0, e1, -⟩ := idx1 t
  funext a; apply Fin.ext
  match a with
  | ⟨0, _⟩ => show win1_0.index t (0 : Fin 2) * 63 + 1 * p.val = p.val; omega
  | ⟨1, _⟩ => show win1_0.index t (1 : Fin 2) * 63 + 1 * j.val = j.val; omega

/-- ML's block at point t, at row q and column j: row 4096 t + q of ML. -/
theorem blk1_1_apply (c : Dev nD) (t : Fin cfg1.N) (q : Fin 4096) (j : Fin 63) :
    (iblk1 V c 1 t : Vec Ideal S4096x63 .f32) (ix2 q j)
      = MLarr V c (ix2 (⟨t.val * 4096 + q.val, by have := q.isLt; have := tlt1 t; omega⟩ : Fin 8192) j) := by
  unfold iblk1
  rw [View.read_apply]
  show V c main_v2 _ = V c main_v2 _
  refine congrArg (V c main_v2) ?_
  obtain ⟨-, -, e2, e3, -⟩ := idx1 t
  funext a; apply Fin.ext
  match a with
  | ⟨0, _⟩ => show win1_1.index t (0 : Fin 2) * 4096 + 1 * q.val = t.val * 4096 + q.val; omega
  | ⟨1, _⟩ => show win1_1.index t (1 : Fin 2) * 63 + 1 * j.val = j.val; omega

/-! ## The result array -/

/-- What the second pallas_call's result array ends holding. -/
def Y1 (c : Dev nD) : S63x8192.Idx → EReal := fun i =>
  ∑ j : Fin 63, Sarr V c (ix2 (⟨(i 0).val, (i 0).isLt⟩ : Fin 63) j) * MLarr V c (ix2 (⟨(i 1).val, (i 1).isLt⟩ : Fin 8192) j)

/-- What a point writes back is the result read through the point's block. -/
theorem flushed2_eq (c : Dev nD) (t : Fin cfg1.N) (hf : (cfg1.win 2).flush t = true) :
    (dat1 V c).flushed 2 t = ((cfg1.win 2).blk t).view.read (Elt Ideal) (Y1 V c) := by
  have ht := tlt1 t
  show (cfg1.win 2).cut (grid1.coords t) ((dat1 V c).after 2 t) = _
  rw [after1_2, out1_eq c (grid1.coords t) (ms1_0 t) (hs1_0 t) (ms1_1 t) (hs1_1 t) (ms1_2 t) (hs1_2 t) (iblk1 V c 0 t) (iblk1 V c 1 t)]
  obtain ⟨-, -, -, -, e4, e5⟩ := idx1 t
  funext y
  obtain ⟨p, q, rfl⟩ : ∃ (p : Fin 63) (q : Fin 4096), y = ix2 p q := ⟨y 0, y 1, eq_ix2 y⟩
  have hemb : ((cfg1.win 2).blk t).view.emb (ix2 p q) = ix2 p (⟨t.val * 4096 + q.val, by have := q.isLt; omega⟩ : Fin 8192) := by
    funext a; apply Fin.ext
    match a with
    | ⟨0, _⟩ => show win1_2.index t (0 : Fin 2) * 63 + 1 * p.val = p.val; omega
    | ⟨1, _⟩ => show win1_2.index t (1 : Fin 2) * 4096 + 1 * q.val = t.val * 4096 + q.val; omega
  show Gen.k1_pay1 (F := Ideal) _ _ (ix2 p q) = Y1 V c (((cfg1.win 2).blk t).view.emb (ix2 p q))
  rw [hemb, Pay.k1_pay1_apply]
  unfold Y1
  refine Finset.sum_congr rfl fun j _ => ?_
  rw [blk1_0_apply V c t p j, blk1_1_apply V c t q j]

/-- An index is in the block of point t when each coordinate is within the block's extent from the block's start. -/
theorem mem_blk1_2 (t : Fin cfg1.N) (i : S63x8192.Idx) :
    i ∈ ((cfg1.win 2).blk t).view.set ↔ ∀ a : Fin 2, win1_2.index t a * S63x4096.size a ≤ (i a).val ∧ (i a).val < win1_2.index t a * S63x4096.size a + S63x4096.size a := by
  show i ∈ ((View.whole main_v3).slice (win1_2.rect t)).set ↔ _
  rw [View.set_slice_whole, Rect.mem_set_unit]
  exact Iff.rfl

/-- Every index of the result array is in the block of the point its column falls in. -/
theorem cover2 (i : S63x8192.Idx) : ∃ t : Fin cfg1.N, (cfg1.win 2).flush t = true ∧ i ∈ ((cfg1.win 2).blk t).view.set := by
  have h0 : (i 0).val < 63 := (i 0).isLt
  have h1 : (i 1).val < 8192 := (i 1).isLt
  have hN : cfg1.N = 2 := N_1
  have hlt : (i 1).val / 4096 < cfg1.N := by rw [hN]; omega
  refine ⟨⟨(i 1).val / 4096, hlt⟩, flush1_2 _, ?_⟩
  obtain ⟨-, -, -, -, e4, e5⟩ := idx1 ⟨(i 1).val / 4096, hlt⟩
  dsimp only at e4 e5
  rw [mem_blk1_2]
  intro a
  match a with
  | ⟨0, _⟩ => show win1_2.index ⟨(i 1).val / 4096, hlt⟩ (0 : Fin 2) * 63 ≤ (i 0).val ∧ (i 0).val < win1_2.index ⟨(i 1).val / 4096, hlt⟩ (0 : Fin 2) * 63 + 63
              rw [e4]; omega
  | ⟨1, _⟩ => show win1_2.index ⟨(i 1).val / 4096, hlt⟩ (1 : Fin 2) * 4096 ≤ (i 1).val ∧ (i 1).val < win1_2.index ⟨(i 1).val / 4096, hlt⟩ (1 : Fin 2) * 4096 + 4096
              rw [e5]; omega

/-- The second pallas_call's result array. -/
theorem final1 (c : Dev nD) : (dat1 V c).arrAt 2 cfg1.N = Y1 V c :=
  (dat1 V c).arrAt_eq_of_cover 2 (Y1 V c) (flushed2_eq V c) (fun i => cover2 i)

end Regions

end Cert.KernelIdeal.Hand

end
-- ==== Proof.Spec.lean ====
/-
  The function both programs compute, over the extended reals, index by index.
  With L : 63 × 8192, S : 63 × 63, W : 8192 × 8192, b : 8192,
    X m n  = max (∑ k, L m k · W n k + b n) 0                 (a linear layer, then the maximum with zero),
    ML r j = X read row-major at the flat position 63·r + j      (the 63 × 8192 array re-read as 8192 × 63),
    G i r  = ∑ j, S i j · ML r j.
  The zero of the maximum is kept as the float word both programs print.
-/
import Idealize.ShloMosaic.PureOps.Ideal
import Idealize.ShloMosaic.Lib.ValueIdx

noncomputable section

namespace Cert.Spec

open Idealize.ShloMosaic Idealize.ShloMosaic.ValueIdx

/-- The linear layer followed by the maximum with zero, at row m and column n. -/
def X (L : FVec Ideal ⟨2, ![63, 8192]⟩ .f32) (W : FVec Ideal ⟨2, ![8192, 8192]⟩ .f32) (b : FVec Ideal ⟨1, ![8192]⟩ .f32)
    (m : Fin 63) (n : Fin 8192) : EReal :=
  max ((∑ k : Fin 8192, L (ix2 m k) * W (ix2 n k)) + b (ix1 n)) (Ideal.ofBits .f32 0x00000000#32)

/-- Row and column of the flat position 63·r + j in a row-major array of 8192 columns. -/
def rowOf (r : Fin 8192) (j : Fin 63) : Fin 63 := ⟨(r.val * 63 + j.val) / 8192, by have := r.isLt; have := j.isLt; omega⟩
def colOf (r : Fin 8192) (j : Fin 63) : Fin 8192 := ⟨(r.val * 63 + j.val) % 8192, by omega⟩

/-- The result at row i and column r. -/
def Gc (L : FVec Ideal ⟨2, ![63, 8192]⟩ .f32) (S : FVec Ideal ⟨2, ![63, 63]⟩ .f32) (W : FVec Ideal ⟨2, ![8192, 8192]⟩ .f32)
    (b : FVec Ideal ⟨1, ![8192]⟩ .f32) (i : Fin 63) (r : Fin 8192) : EReal :=
  ∑ j : Fin 63, S (ix2 i j) * X L W b (rowOf r j) (colOf r j)

/-- The result as an array. -/
def G (L : FVec Ideal ⟨2, ![63, 8192]⟩ .f32) (S : FVec Ideal ⟨2, ![63, 63]⟩ .f32) (W : FVec Ideal ⟨2, ![8192, 8192]⟩ .f32)
    (b : FVec Ideal ⟨1, ![8192]⟩ .f32) : FVec Ideal ⟨2, ![63, 8192]⟩ .f32 :=
  fun i => Gc L S W b ⟨(i 0).val, (i 0).isLt⟩ ⟨(i 1).val, (i 1).isLt⟩

end Cert.Spec

end
-- ==== Proof.KernelIdeal.Final.lean ====
/-
  The kernel's result is the specification's function of the arguments, over the extended reals. At the second
  region's entry S holds its launch contents and the 8192 × 63 operand is the first region's 63 × 8192 result
  re-read row-major; that result is, index by index, the maximum of zero and the full contraction plus the bias
  (the bias row being the bias re-read as 1 × 8192); and the zero the accumulation starts from is the additive
  zero of the extended reals.
-/
import proofs.«125805_j52673478918325_2_alg».proof.Proof.KernelIdeal.Args
import proofs.«125805_j52673478918325_2_alg».proof.Proof.KernelIdeal.Value0
import proofs.«125805_j52673478918325_2_alg».proof.Proof.KernelIdeal.Value1
import proofs.«125805_j52673478918325_2_alg».proof.Proof.Spec
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open Idealize.ShloMosaic.StableHlo

variable (m : (ℓ : Loc nD τ sig) → Buf (Elt Ideal) ℓ) (ρ : Dev nD → PrngReg)

/-! ## The contents the regions find -/

theorem V1_arg0 (c : Dev nD) : Larr (V1 m ρ) c = m ((c : Thread nD τ).loc main_arg0) :=
  (W1_of m ρ c main_arg0 (by decide)).trans rfl
theorem V1_arg2 (c : Dev nD) : Warr (V1 m ρ) c = m ((c : Thread nD τ).loc main_arg2) :=
  (W1_of m ρ c main_arg2 (by decide)).trans rfl
/-- The bias row is the bias re-read as 1 × 8192. -/
theorem V1_v0 (c : Dev nD) : Barr (V1 m ρ) c = shapeCast S1x8192 (m ((c : Thread nD τ).loc main_arg3)) Gen.shapeCasts_S8192_S1x8192 := by
  show StableHlo.after hostOps0 (W0 m ρ c) (Proc.devRef .tc main_v0) = _
  after_results
  rfl
theorem V3_arg1 (c : Dev nD) : Sarr (V3 m ρ) c = m ((c : Thread nD τ).loc main_arg1) := W3_main_arg1 m ρ c
/-- The second region's 8192 × 63 operand is the first region's result re-read row-major. -/
theorem V3_v2 (c : Dev nD) : MLarr (V3 m ρ) c = shapeCast S8192x63 (W2 m ρ c (Proc.devRef .tc main_v1)) Gen.shapeCasts_S63x8192_S8192x63 := by
  show StableHlo.after hostOps1 (W2 m ρ c) (Proc.devRef .tc main_v2) = _
  after_results
  rfl
theorem W2_v1 (c : Dev nD) : W2 m ρ c (Proc.devRef .tc main_v1) = X0 (V1 m ρ) c :=
  (W2_arr m ρ c 3).trans (final3 (V1 m ρ) c)
theorem W4_v3 (c : Dev nD) : W4 m ρ c (Proc.devRef .tc main_v3) = Y1 (V3 m ρ) c :=
  (W4_arr m ρ c 2).trans (final1 (V3 m ρ) c)

/-! ## The bridge -/

/-- The first region's result at row mm and column n is the linear layer followed by the maximum with zero. -/
theorem X0_eq (c : Dev nD) (mm : Fin 63) (n : Fin 8192) :
    X0 (V1 m ρ) c (ix2 mm n) = Cert.Spec.X (m ((c : Thread nD τ).loc main_arg0)) (m ((c : Thread nD τ).loc main_arg2)) (m ((c : Thread nD τ).loc main_arg3)) mm n := by
  have hB : Barr (V1 m ρ) c (ix2 (0 : Fin 1) n) = m ((c : Thread nD τ).loc main_arg3) (ix1 n) := by
    rewrite [V1_v0]
    exact shapeCast_apply _ _ (ix2 (0 : Fin 1) n) (ix1 n) (by
      rewrite [Shape.rowMajor_val_one, Shape.rowMajor_val_two]; show n.val = 0 * 8192 + n.val; omega)
  show max ((Ideal.ofBits .f32 0x00000000#32 + ∑ k : Fin 8192, Larr (V1 m ρ) c (ix2 mm k) * Warr (V1 m ρ) c (ix2 n k))
      + Barr (V1 m ρ) c (ix2 (0 : Fin 1) n)) (Ideal.ofBits .f32 0x00000000#32) = _
  rewrite [hB, V1_arg0, V1_arg2]
  unfold Cert.Spec.X
  rw [Ideal.ofBits_zero_f32, zero_add]

/-- The second region's operand at row r and column j is that result at the flat position 63 r + j. -/
theorem ML_eq (c : Dev nD) (r : Fin 8192) (j : Fin 63) :
    MLarr (V3 m ρ) c (ix2 r j) = Cert.Spec.X (m ((c : Thread nD τ).loc main_arg0)) (m ((c : Thread nD τ).loc main_arg2)) (m ((c : Thread nD τ).loc main_arg3)) (Cert.Spec.rowOf r j) (Cert.Spec.colOf r j) := by
  rewrite [V3_v2]
  refine (shapeCast_apply _ _ (ix2 r j) (ix2 (Cert.Spec.rowOf r j) (Cert.Spec.colOf r j)) ?_).trans ?_
  · rewrite [Shape.rowMajor_val_two, Shape.rowMajor_val_two]
    show (r.val * 63 + j.val) / 8192 * 8192 + (r.val * 63 + j.val) % 8192 = r.val * 63 + j.val
    omega
  · rewrite [W2_v1]
    exact X0_eq m ρ c _ _

/-- THE RESULT: what the kernel leaves in its result array is the specification's function of the arguments. -/
theorem result_eq (c : Dev nD) :
    W4 m ρ c (Proc.devRef .tc main_v3) = Cert.Spec.G (m ((c : Thread nD τ).loc main_arg0)) (m ((c : Thread nD τ).loc main_arg1))
      (m ((c : Thread nD τ).loc main_arg2)) (m ((c : Thread nD τ).loc main_arg3)) := by
  rewrite [W4_v3]
  funext i
  unfold Y1 Cert.Spec.G Cert.Spec.Gc
  refine Finset.sum_congr rfl fun j _ => ?_
  rw [ML_eq, V3_arg1]

end Cert.KernelIdeal.Hand

end
-- ==== Proof.RefSide.lean ====
/-
  The reference program computes the specification: read one operation at a time, its result at row i and
  column r is the sum over j of S i j times the linear layer (followed by the maximum with zero) read row-major
  at the flat position 63·r + j.
-/
import proofs.«125805_j52673478918325_2_alg».proof.Proof.Gen.ReferenceIdeal.Read
import proofs.«125805_j52673478918325_2_alg».proof.Proof.Spec

noncomputable section

namespace Cert.RefSide

open Idealize.ShloMosaic Idealize.ShloMosaic.ValueIdx Cert.ReferenceIdeal Cert.ReferenceIdeal.Read

/-- The linear layer followed by the maximum with zero, as the reference computes it, at an index. -/
theorem relu_eq (x0 : (⟨Cert.ReferenceIdeal.S63x8192, .f32⟩ : BufTy).Contents (Elt Ideal))
    (x2 : (⟨Cert.ReferenceIdeal.S8192x8192, .f32⟩ : BufTy).Contents (Elt Ideal))
    (x3 : (⟨Cert.ReferenceIdeal.S8192, .f32⟩ : BufTy).Contents (Elt Ideal)) (m : Fin 63) (n : Fin 8192) :
    val_main_v5 (F := Ideal) x0 x2 x3 (ix2 m n) = Cert.Spec.X x0 x2 x3 m n := by
  have el : ∀ k : Fin 8192, lidx_main_v1 (ix2 m n) k = ix2 m k := fun k =>
    funext fun a => Fin.ext (by match a with | ⟨0, _⟩ => rfl | ⟨1, _⟩ => rfl)
  have er : ∀ k : Fin 8192, idx_main_v0 (ridx_main_v1 (ix2 m n) k) = ix2 n k := fun k =>
    funext fun a => Fin.ext (by match a with | ⟨0, _⟩ => rfl | ⟨1, _⟩ => rfl)
  have eb : idx_main_v2 (idx_main_v3 (ix2 m n)) = ix1 n :=
    funext fun a => Fin.ext (by match a with | ⟨0, _⟩ => rfl)
  rw [val_main_v5_apply, val_main_v4_apply, val_main_v1_apply, val_main_v3_apply, val_main_v2_apply,
    val_main_call0_v0_apply, val_main_call0_cst_apply, eb]
  simp only [Ideal.addf_def, Ideal.maximumf_def, Ideal.ofBits_def]
  unfold Cert.Spec.X
  congr 2
  refine Finset.sum_congr rfl fun k _ => ?_
  rw [val_main_v0_apply, el, er]

/-- The reference's result is the specification. -/
theorem ref_eq (x0 : (⟨Cert.ReferenceIdeal.S63x8192, .f32⟩ : BufTy).Contents (Elt Ideal))
    (x1 : (⟨Cert.ReferenceIdeal.S63x63, .f32⟩ : BufTy).Contents (Elt Ideal))
    (x2 : (⟨Cert.ReferenceIdeal.S8192x8192, .f32⟩ : BufTy).Contents (Elt Ideal))
    (x3 : (⟨Cert.ReferenceIdeal.S8192, .f32⟩ : BufTy).Contents (Elt Ideal)) :
    Cert.ReferenceIdeal.Read.val_main_v7 (F := Ideal) x0 x1 x2 x3 = Cert.Spec.G x0 x1 x2 x3 := by
  funext i
  rw [val_main_v7_apply]
  show _ = Cert.Spec.Gc x0 x1 x2 x3 ⟨(i 0).val, (i 0).isLt⟩ ⟨(i 1).val, (i 1).isLt⟩
  unfold Cert.Spec.Gc
  refine Finset.sum_congr rfl fun j _ => ?_
  have el : lidx_main_v7 i j = ix2 (⟨(i 0).val, (i 0).isLt⟩ : Fin 63) j :=
    funext fun a => Fin.ext (by match a with | ⟨0, _⟩ => rfl | ⟨1, _⟩ => rfl)
  have er : idx_main_v6 (ridx_main_v7 i j)
      = ix2 (Cert.Spec.rowOf ⟨(i 1).val, (i 1).isLt⟩ j) (Cert.Spec.colOf ⟨(i 1).val, (i 1).isLt⟩ j) :=
    funext fun a => Fin.ext (by match a with | ⟨0, _⟩ => rfl | ⟨1, _⟩ => rfl)
  rw [val_main_v6_apply, el, er, relu_eq]

end Cert.RefSide

end
-- ==== Proof.lean ====
/-
  The certificate: a 63 × 8192 linear layer with bias and the maximum with zero, whose contraction the kernel
  accumulates over eight blocks of 1024 in a scratch buffer, re-read row-major as 8192 × 63 and multiplied by a
  63 × 63 matrix along the short axis by a second pallas_call — against the same computation written with one
  dot_general each.

  Frames: the kernel's program, as printed and as idealized, is run region by region (the accumulator carried
  from grid point to grid point by the first region's invariant); the reference's frame is its run with the
  result dropped. The idealization rewrote nothing, so there is nothing to preserve. Over the extended reals
  both programs end at one function of the arguments: the kernel's ordered accumulation zero + block 0 + … +
  block 7 is the full sum because addition there is associative and commutative, the bias row and the
  8192 × 63 operand are row-major re-readings, and the float zero is the additive zero. No finiteness is used.
-/
import proofs.«125805_j52673478918325_2_alg».proof.Defs
import proofs.«125805_j52673478918325_2_alg».proof.Proof.Gen.Kernel
import proofs.«125805_j52673478918325_2_alg».proof.Proof.Gen.KernelIdeal
import proofs.«125805_j52673478918325_2_alg».proof.Proof.Gen.ReferenceIdeal
import proofs.«125805_j52673478918325_2_alg».proof.Proof.Gen.Pre_finite_inputs
import proofs.«125805_j52673478918325_2_alg».proof.Proof.Gen.ReferenceIdeal.Run
import proofs.«125805_j52673478918325_2_alg».proof.Proof.Gen.ReferenceIdeal.Read
import proofs.«125805_j52673478918325_2_alg».proof.Proof.Kernel.Args
import proofs.«125805_j52673478918325_2_alg».proof.Proof.KernelIdeal.Final
import proofs.«125805_j52673478918325_2_alg».proof.Proof.RefSide

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's function of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Hand.result_eq m ρ c), (h c).2⟩)
      (Cert.KernelIdeal.Hand.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.RefSide.ref_eq, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
